-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S3072x2048 : S_.BroadcastsInDim S3072x2048 (![] : Fin 0 → Fin S3072x2048.rank)
  reducesTo_S3072x2048_S_d0_1 : S3072x2048.ReducesTo [0, 1] S_

variable [Facts]

def fn_part2 {F : FTy → Type} [FloatOps F] (main_arg7 : FVec F S2048 .f32) (main_arg8 : FVec F S3072x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S3072x2048 .f32 := Host.absf main_arg8
  let main_cst_14 : FVec F S_ .f32 := constant S_ .f32 0x7F800000#32
  let main_v40 : FVec F S3072x2048 .f32 := broadcastInDim S3072x2048 ![] bcast_S_S3072x2048 main_cst_14
  let main_v41 : IVec S3072x2048 1 := cmpf .olt main_v39 main_v40
  let main_c_15 : IVec S_ 1 := constantI S_ 1 1#1
  let main_v42 : IVec S_ 1 := (fun x v => Host.reduce IntOp.andi x v reducesTo_S3072x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x512 .f32) (main_arg5 : FVec F S2048x512 .f32) (main_arg6 : FVec F S1024x2048 .f32) (main_arg7 : FVec F S2048 .f32) (main_arg8 : FVec F S3072x2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048x512 .f32 := Host.absf main_arg5
  let main_cst_8 : FVec F S_ .f32 := constant S_ .f32 0x7F800000#32
  let main_v25 : FVec F S2048x512 .f32 := broadcastInDim S2048x512 ![] bcast_S_S2048x512 main_cst_8
  let main_v26 : IVec S2048x512 1 := cmpf .olt main_v24 main_v25
  let main_c_9 : IVec S_ 1 := constantI S_ 1 1#1
  let main_v27 : IVec S_ 1 := (fun x v => Host.reduce IntOp.andi x v reducesTo_S2048x512_S_d0_1 h_S_) main_v26 main_c_9
  let main_v28 : IVec S_ 1 := andi main_v23 main_v27
  let main_v29 : FVec F S1024x2048 .f32 := Host.absf main_arg6
  let main_cst_10 : FVec F S_ .f32 := constant S_ .f32 0x7F800000#32
  let main_v30 : FVec F S1024x2048 .f32 := broadcastInDim S1024x2048 ![] bcast_S_S1024x2048 main_cst_10
  let main_v31 : IVec S1024x2048 1 := cmpf .olt main_v29 main_v30
  let main_c_11 : IVec S_ 1 := constantI S_ 1 1#1
  let main_v32 : IVec S_ 1 := (fun x v => Host.reduce IntOp.andi x v reducesTo_S1024x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x2048 .f32) (main_arg1 : FVec F S4096x2048 .f32) (main_arg2 : FVec F S4096x1024 .f32) (main_arg3 : FVec F S2048 .f32) (main_arg4 : FVec F S2048x512 .f32) (main_arg5 : FVec F S2048x512 .f32) (main_arg6 : FVec F S1024x2048 .f32) (main_arg7 : FVec F S2048 .f32) (main_arg8 : FVec F S3072x2048 .f32) (main_arg9 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S512x2048 : Shape := ⟨2, ![512, 2048]⟩
abbrev S2048x2048 : Shape := ⟨2, ![2048, 2048]⟩
abbrev S_ : Shape := ⟨0, ![]⟩
abbrev S1x2048 : Shape := ⟨2, ![1, 2048]⟩
abbrev S256x2048 : Shape := ⟨2, ![256, 2048]⟩
abbrev S256x1024 : Shape := ⟨2, ![256, 1024]⟩
abbrev S256x512 : Shape := ⟨2, ![256, 512]⟩
abbrev S512x512 : Shape := ⟨2, ![512, 512]⟩
abbrev S1x512 : Shape := ⟨2, ![1, 512]⟩
abbrev S1024x512 : Shape := ⟨2, ![1024, 512]⟩

abbrev nBuf : Space → Nat
  | .hbm => 26
  | .vmem => 16
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S1024x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S2048x512, .bf16⟩
  | .hbm, ⟨11, _⟩ => ⟨S512x2048, .f32⟩
  | .hbm, ⟨12, _⟩ => ⟨S512x2048, .bf16⟩
  | .hbm, ⟨13, _⟩ => ⟨S1024x2048, .bf16⟩
  | .hbm, ⟨14, _⟩ => ⟨S1024x2048, .f32⟩
  | .hbm, ⟨15, _⟩ => ⟨S1024x2048, .bf16⟩
  | .hbm, ⟨16, _⟩ => ⟨S2048x2048, .f32⟩
  | .hbm, ⟨17, _⟩ => ⟨S2048x2048, .bf16⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x1024, .f32⟩
  | .local _ .vmem, ⟨5, _⟩ => ⟨S256x1024, .f32⟩
  | .local _ .vmem, ⟨6, _⟩ => ⟨S1x2048, .f32⟩
  | .local _ .vmem, ⟨7, _⟩ => ⟨S2048x512, .bf16⟩
  | .local _ .vmem, ⟨8, _⟩ => ⟨S512x2048, .bf16⟩
  | .local _ .vmem, ⟨9, _⟩ => ⟨S1024x2048, .bf16⟩
  | .local _ .vmem, ⟨10, _⟩ => ⟨S1x2048, .f32⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  transposes_S2048x512_S512x2048_1_0 : S2048x512.Transposes [1, 0] S512x2048
  slices_S3072x2048_S1024x2048_0_0 : S3072x2048.Slices ![0, 0] S1024x2048
  slices_S3072x2048_S2048x2048_1024_0 : S3072x2048.Slices ![1024, 0] S2048x2048
  bcast_S_S2048 : S_.BroadcastsInDim S2048 (![] : Fin 0 → Fin S2048.rank)
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  inb_S256x1024_S256x1024_0_0 : ∀ a, (![0, 0] : Fin 2 → Nat) a + S256x1024.size a ≤ S256x1024.size a
  h_S256x1024 : 0 < S256x1024.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  slices_S1x2048_o0_0_S1x512 : S1x2048.Slices ![0, 0] S1x512
  slices_S256x2048_o0_0_S256x512 : S256x2048.Slices ![0, 0] S256x512
  broadcasts_S1x512_S256x512 : S1x512.Broadcasts S256x512
  inb_S1024x2048_S1024x512_0_0 : ∀ a, (![0, 0] : Fin 2 → Nat) a + S1024x512.size a ≤ S1024x2048.size a
  h_S1024x512 : 0 < S1024x512.numel
  shapeCasts_S1024x512_S1024x512 : S1024x512.ShapeCasts S1024x512
  inb_S2048x2048_S2048x512_0_0 : ∀ a, (![0, 0] : Fin 2 → Nat) a + S2048x512.size a ≤ S2048x2048.size a
  inb_S256x2048_S256x512_0_0 : ∀ a, (![0, 0] : Fin 2 → Nat) a + S256x512.size a ≤ S256x2048.size a
  h_S256x512 : 0 < S256x512.numel
  inb_S512x2048_S512x512_0_512 : ∀ a, (![0, 512] : Fin 2 → Nat) a + S512x512.size a ≤ S512x2048.size a
  slices_S1x2048_o0_512_S1x512 : S1x2048.Slices ![0, 512] S1x512
  slices_S256x2048_o0_512_S256x512 : S256x2048.Slices ![0, 512] S256x512
  inb_S1024x2048_S1024x512_0_512 : ∀ a, (![0, 512] : Fin 2 → Nat) a + S1024x512.size a ≤ S1024x2048.size a
  inb_S2048x2048_S2048x512_0_512 : ∀ a, (![0, 512] : Fin 2 → Nat) a + S2048x512.size a ≤ S2048x2048.size a
  inb_S256x2048_S256x512_0_512 : ∀ a, (![0, 512] : Fin 2 → Nat) a + S256x512.size a ≤ S256x2048.size a
  inb_S512x2048_S512x512_0_1024 : ∀ a, (![0, 1024] : Fin 2 → Nat) a + S512x512.size a ≤ S512x2048.size a
  slices_S1x2048_o0_1024_S1x512 : S1x2048.Slices ![0, 1024] S1x512
  slices_S256x2048_o0_1024_S256x512 : S256x2048.Slices ![0, 1024] S256x512
  inb_S1024x2048_S1024x512_0_1024 : ∀ a, (![0, 1024] : Fin 2 → Nat) a + S1024x512.size a ≤ S1024x2048.size a
  inb_S2048x2048_S2048x512_0_1024 : ∀ a, (![0, 1024] : Fin 2 → Nat) a + S2048x512.size a ≤ S2048x2048.size a
  inb_S256x2048_S256x512_0_1024 : ∀ a, (![0, 1024] : Fin 2 → Nat) a + S256x512.size a ≤ S256x2048.size a
  inb_S512x2048_S512x512_0_1536 : ∀ a, (![0, 1536] : Fin 2 → Nat) a + S512x512.size a ≤ S512x2048.size a
  slices_S1x2048_o0_1536_S1x512 : S1x2048.Slices ![0, 1536] S1x512
  slices_S256x2048_o0_1536_S256x512 : S256x2048.Slices ![0, 1536] S256x512
  inb_S1024x2048_S1024x512_0_1536 : ∀ a, (![0, 1536] : Fin 2 → Nat) a + S1024x512.size a ≤ S1024x2048.size a
  inb_S2048x2048_S2048x512_0_1536 : ∀ a, (![0, 1536] : Fin 2 → Nat) a + S2048x512.size a ≤ S2048x2048.size a
  inb_S256x2048_S256x512_0_1536 : ∀ a, (![0, 1536] : Fin 2 → Nat) a + S256x512.size a ≤ S256x2048.size a
  dot_S256x2048_S2048x512_S256x512_1_0_0_1_n_n_wf : DotDims.WF S256x2048 S2048x512 S256x512 [1] [0] [0] [1] [] []
  dot_S256x512_S512x512_S256x512_1_0_0_1_n_n_wf : DotDims.WF S256x512 S512x512 S256x512 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S2048x512.size a
  hwx0_4 : ∀ i : grid0.Coords, EltTy.bits .bf16 = 32 ∨ (Rect.block (s := S2048x512) S2048x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x2048.size a ≤ S1024x2048.size a
  hwx0_6 : ∀ i : grid0.Coords, EltTy.bits .bf16 = 32 ∨ (Rect.block (s := S1024x2048) S1024x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S1024x2048.size a
  hwx0_8 : ∀ i : grid0.Coords, EltTy.bits .bf16 = 32 ∨ (Rect.block (s := S1024x2048) S1024x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x2048.size a ≤ S2048x2048.size a
  hwx0_9 : ∀ i : grid0.Coords, EltTy.bits .bf16 = 32 ∨ (Rect.block (s := S2048x2048) S2048x2048.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2048.size a ≤ S1x2048.size a
  hwx0_10 : ∀ i : grid0.Coords, EltTy.bits .f32 = 32 ∨ (Rect.block (s := S1x2048) S1x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x2048.size a ≤ S4096x2048.size a
  hwx0_11 : ∀ i : grid0.Coords, EltTy.bits .f32 = 32 ∨ (Rect.block (s := S4096x2048) S256x2048.size (cc0_transform_11 i) (hinb0_11 i)).WholeWords (EltTy.packing .f32)

variable [Facts₀]

def dot_S256x2048_S2048x512_S256x512_1_0_0_1_n_n : DotDims S256x2048 S2048x512 S256x512 where
  lhsContracting := [1]
  rhsContracting := [0]
  lhsNonContracting := [0]
  rhsNonContracting := [1]
  lhsBatch := []
  rhsBatch := []
  wf := dot_S256x2048_S2048x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1024x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1024x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S2048x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x2048.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S256x2048.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096x1024 : Shape := ⟨2, ![4096, 1024]⟩
abbrev S2048 : Shape := ⟨1, ![2048]⟩
abbrev S2048x512 : Shape := ⟨2, ![2048, 512]⟩
abbrev S1024x2048 : Shape := ⟨2, ![1024, 2048]⟩
abbrev S3072x2048 : Shape := ⟨2, ![3072, 2048]⟩
abbrev S_ : Shape := ⟨0, ![]⟩
abbrev S1x2048 : Shape := ⟨2, ![1, 2048]⟩
abbrev S4096x512 : Shape := ⟨2, ![4096, 512]⟩
abbrev S512x2048 : Shape := ⟨2, ![512, 2048]⟩
abbrev S4096x3072 : Shape := ⟨2, ![4096, 3072]⟩

abbrev nBuf : Space → Nat
  | .hbm => 33
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x1024, .f32⟩
  | .hbm, ⟨3, _⟩ => ⟨S2048, .f32⟩
  | .hbm, ⟨4, _⟩ => ⟨S2048x512, .f32⟩
  | .hbm, ⟨5, _⟩ => ⟨S2048x512, .f32⟩
  | .hbm, ⟨6, _⟩ => ⟨S1024x2048, .f32⟩
  | .hbm, ⟨7, _⟩ => ⟨S2048, .f32⟩
  | .hbm, ⟨8, _⟩ => ⟨S3072x2048, .f32⟩
  | .hbm, ⟨9, _⟩ => ⟨S2048, .f32⟩
  | .hbm, ⟨10, _⟩ => ⟨S2048, .f32⟩
  | .hbm, ⟨11, _⟩ => ⟨S_, .f32⟩
  | .hbm, ⟨12, _⟩ => ⟨S2048, .f32⟩
  | .hbm, ⟨13, _⟩ => ⟨S2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S1x2048, .f32⟩
  | .hbm, ⟨20, _⟩ => ⟨S4096x2048, .f32⟩
  | .hbm, ⟨21, _⟩ => ⟨S4096x2048, .f32⟩
  | .hbm, ⟨22, _⟩ => ⟨S4096x512, .f32⟩
  | .hbm, ⟨23, _⟩ => ⟨S512x2048, .f32⟩
  | .hbm, ⟨24, _⟩ => ⟨S4096x2048, .f32⟩
  | .hbm, ⟨25, _⟩ => ⟨S4096x2048, .f32⟩
  | .hbm, ⟨26, _⟩ => ⟨S4096x3072, .f32⟩
  | .hbm, ⟨27, _⟩ => ⟨S4096x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S_S2048 : S_.BroadcastsInDim S2048 (![] : Fin 0 → Fin S2048.rank)
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  transposes_S2048x512_S512x2048_1_0 : S2048x512.Transposes [1, 0] S512x2048
  concatenates_S4096x1024_S4096x2048_S4096x3072_d1 : Shape.Concatenates [S4096x1024, S4096x2048] S4096x3072 1
  dot_S4096x1024_S1024x2048_S4096x2048_1_0_0_1_n_n_wf : DotDims.WF S4096x1024 S1024x2048 S4096x2048 [1] [0] [0] [1] [] []
  dot_S4096x2048_S2048x512_S4096x512_1_0_0_1_n_n_wf : DotDims.WF S4096x2048 S2048x512 S4096x512 [1] [0] [0] [1] [] []
  dot_S4096x512_S512x2048_S4096x2048_1_0_0_1_n_n_wf : DotDims.WF S4096x512 S512x2048 S4096x2048 [1] [0] [0] [1] [] []
  dot_S4096x3072_S3072x2048_S4096x2048_1_0_0_1_n_n_wf : DotDims.WF S4096x3072 S3072x2048 S4096x2048 [1] [0] [0] [1] [] []

variable [Facts₀]

def dot_S4096x1024_S1024x2048_S4096x2048_1_0_0_1_n_n : DotDims S4096x1024 S1024x2048 S4096x2048 where
  lhsContracting := [1]
  rhsContracting := [0]
  lhsNonContracting := [0]
  rhsNonContracting := [1]
  lhsBatch := []
  rhsBatch := []
  wf := dot_S4096x1024_S1024x2048_S4096x2048_1_0_0_1_n_n_wf
def dot_S4096x2048_S2048x512_S4096x512_1_0_0_1_n_n : DotDims S4096x2048 S2048x512 S4096x512 where
  lhsContracting := [1]
  rhsContracting := [0]
  lhsNonContracting := [0]
  rhsNonContracting := [1]
  lhsBatch := []
  rhsBatch := []
  wf := dot_S4096x2048_S2048x512_S4096x512_1_0_0_1_n_n_wf
def dot_S4096x512_S512x2048_S4096x2048_1_0_0_1_n_n : DotDims S4096x512 S512x2048 S4096x2048 where
  lhsContracting := [1]
  rhsContracting := [0]
  lhsNonContracting := [0]
  rhsNonContracting := [1]
  lhsBatch := []
  rhsBatch := []
  wf := dot_S4096x512_S512x2048_S4096x2048_1_0_0_1_n_n_wf
def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf

class Facts : Prop extends Facts₀ where

variable [Facts]
-- ==== Proof.Spec.lean ====
/-
  The mathematics of the state update, with no program in sight.

  For a batch row `p` and an output column `n` the update is

      tanh (c_p · Wmod[:, n] + bmod n) * ((tanh (ad n) * κ) * w (p, n) + Σ_r (w_p · AV[:, r]) * AU (n, r))
        + ((c_p · WB[0:1024, n] + z_p · WB[1024:3072, n]) + bB n)

  (`κ` the one float literal both programs share, kept as its word and never evaluated).  `Gat` is that number as a
  function of the ten argument arrays, `G` the whole result array.  The joined product `[c | z] · WB` is the sum of
  the two partial products: a finite sum over 3072 positions is the sum over the first 1024 plus the sum over the
  remaining 2048, in any commutative monoid (`sum_split`), so no entry has to be finite.
  `Eat` is the same formula over the eleven BLOCKS one grid point works on (256 batch rows; the weights already
  cut, transposed and scaled), and `E_eq_G` says when a block computation is the array computation.
-/
import Idealize.ShloMosaic.PureOps.Ideal
import Idealize.ShloMosaic.Lib.ValueIdx

noncomputable section

namespace Cert.Wave

open Idealize.ShloMosaic Idealize.ShloMosaic.ValueIdx

/-- Row `k` of the first 1024 rows of the joined weight matrix. -/
abbrev lo (k : Fin 1024) : Fin 3072 := ⟨k.val, by have := k.isLt; omega⟩
/-- Row `1024 + k` of the joined weight matrix: row `k` of its last 2048 rows. -/
abbrev hi (k : Fin 2048) : Fin 3072 := ⟨1024 + k.val, by have := k.isLt; omega⟩

/-- A sum over 3072 positions is the sum over the first 1024 plus the sum over the last 2048. -/
theorem sum_split {M : Type*} [AddCommMonoid M] (f : Fin 3072 → M) :
    ∑ k : Fin 3072, f k = ∑ k : Fin 1024, f (lo k) + ∑ k : Fin 2048, f (hi k) :=
  Fin.sum_univ_add (a := 1024) (b := 2048) f

/-- The shared float literal (0.9 rounded to f32), as its word. -/
abbrev κ : EReal := Ideal.ofBits .f32 0x3F666666#32

variable (w z : (⟨2, ![4096, 2048]⟩ : Shape).Idx → EReal) (c : (⟨2, ![4096, 1024]⟩ : Shape).Idx → EReal)
  (ad : (⟨1, ![2048]⟩ : Shape).Idx → EReal) (au av : (⟨2, ![2048, 512]⟩ : Shape).Idx → EReal)
  (wm : (⟨2, ![1024, 2048]⟩ : Shape).Idx → EReal) (bm : (⟨1, ![2048]⟩ : Shape).Idx → EReal)
  (wb : (⟨2, ![3072, 2048]⟩ : Shape).Idx → EReal) (bb : (⟨1, ![2048]⟩ : Shape).Idx → EReal)

/-- The updated state at batch row `p`, column `n`. -/
def Gat (p : Fin 4096) (n : Fin 2048) : EReal :=
  Ideal.tanh ((∑ k : Fin 1024, c (ix2 p k) * wm (ix2 k n)) + bm (ix1 n))
      * ((Ideal.tanh (ad (ix1 n)) * κ) * w (ix2 p n)
          + ∑ r : Fin 512, (∑ k : Fin 2048, w (ix2 p k) * av (ix2 k r)) * au (ix2 n r))
    + (((∑ k : Fin 1024, c (ix2 p k) * wb (ix2 (lo k) n)) + ∑ k : Fin 2048, z (ix2 p k) * wb (ix2 (hi k) n)) + bb (ix1 n))

/-- The updated state, as one array. -/
def G : (⟨2, ![4096, 2048]⟩ : Shape).Idx → EReal := fun j =>
  Gat w z c ad au av wm bm wb bb ⟨(j 0).val, idx2_lt0 j⟩ ⟨(j 1).val, idx2_lt1 j⟩

theorem G_ix2 (p : Fin 4096) (n : Fin 2048) :
    G w z c ad au av wm bm wb bb (ix2 p n) = Gat w z c ad au av wm bm wb bb p n := rfl

section Block

variable (x0 x1 : (⟨2, ![256, 2048]⟩ : Shape).Idx → EReal) (x2 : (⟨2, ![256, 1024]⟩ : Shape).Idx → EReal)
  (x3 : (⟨2, ![1, 2048]⟩ : Shape).Idx → EReal) (x4 : (⟨2, ![2048, 512]⟩ : Shape).Idx → EReal)
  (x5 : (⟨2, ![512, 2048]⟩ : Shape).Idx → EReal) (x6 : (⟨2, ![1024, 2048]⟩ : Shape).Idx → EReal)
  (x7 : (⟨2, ![1, 2048]⟩ : Shape).Idx → EReal) (x8 : (⟨2, ![1024, 2048]⟩ : Shape).Idx → EReal)
  (x9 : (⟨2, ![2048, 2048]⟩ : Shape).Idx → EReal) (x10 : (⟨2, ![1, 2048]⟩ : Shape).Idx → EReal)

/-- The same formula over one grid point's blocks: `x0`, `x1`, `x2` the 256 batch rows of `w`, `z`, `c`; `x3` the scaled
    diagonal as a row; `x4` = AV; `x5` = AUᵀ; `x6` = Wmod; `x7` = bmod as a row; `x8`, `x9` the two row ranges of WB;
    `x10` = bB as a row. -/
def Eat (p : Fin 256) (n : Fin 2048) : EReal :=
  Ideal.tanh ((∑ k : Fin 1024, x2 (ix2 p k) * x6 (ix2 k n)) + x7 (ix2 (0 : Fin 1) n))
      * (x3 (ix2 (0 : Fin 1) n) * x0 (ix2 p n)
          + ∑ r : Fin 512, (∑ k : Fin 2048, x0 (ix2 p k) * x4 (ix2 k r)) * x5 (ix2 r n))
    + (((∑ k : Fin 1024, x2 (ix2 p k) * x8 (ix2 k n)) + ∑ k : Fin 2048, x1 (ix2 p k) * x9 (ix2 k n)) + x10 (ix2 (0 : Fin 1) n))

/-- One grid point's block of the result. -/
def E : (⟨2, ![256, 2048]⟩ : Shape).Idx → EReal := fun j =>
  Eat x0 x1 x2 x3 x4 x5 x6 x7 x8 x9 x10 ⟨(j 0).val, idx2_lt0 j⟩ ⟨(j 1).val, idx2_lt1 j⟩

theorem E_ix2 (p : Fin 256) (n : Fin 2048) :
    E x0 x1 x2 x3 x4 x5 x6 x7 x8 x9 x10 (ix2 p n) = Eat x0 x1 x2 x3 x4 x5 x6 x7 x8 x9 x10 p n := rfl

/-- A block computation is the array computation at batch row `P` when the blocks are what their names say: the rows
    `P` of the three activations, the scaled diagonal, AV, AU transposed, Wmod, the biases, and the two row ranges of WB. -/
theorem Eat_eq_Gat (p : Fin 256) (P : Fin 4096) (n : Fin 2048)
    (h0 : ∀ k : Fin 2048, x0 (ix2 p k) = w (ix2 P k)) (h1 : ∀ k : Fin 2048, x1 (ix2 p k) = z (ix2 P k))
    (h2 : ∀ k : Fin 1024, x2 (ix2 p k) = c (ix2 P k))
    (h3 : x3 (ix2 (0 : Fin 1) n) = Ideal.tanh (ad (ix1 n)) * κ)
    (h4 : ∀ (k : Fin 2048) (r : Fin 512), x4 (ix2 k r) = av (ix2 k r))
    (h5 : ∀ r : Fin 512, x5 (ix2 r n) = au (ix2 n r))
    (h6 : ∀ k : Fin 1024, x6 (ix2 k n) = wm (ix2 k n))
    (h7 : x7 (ix2 (0 : Fin 1) n) = bm (ix1 n))
    (h8 : ∀ k : Fin 1024, x8 (ix2 k n) = wb (ix2 (lo k) n))
    (h9 : ∀ k : Fin 2048, x9 (ix2 k n) = wb (ix2 (hi k) n))
    (h10 : x10 (ix2 (0 : Fin 1) n) = bb (ix1 n)) :
    Eat x0 x1 x2 x3 x4 x5 x6 x7 x8 x9 x10 p n = Gat w z c ad au av wm bm wb bb P n := by
  unfold Eat Gat
  simp only [h0, h1, h2, h3, h4, h5, h6, h7, h8, h9, h10]

end Block

end Cert.Wave

end
-- ==== Proof.LibConcatCols.lean ====
/-
  Two arrays with the same rows joined side by side, read at an entry.

  Joining an [R, A] array and an [R, B] array along the second axis gives an [R, C] array (C = A + B) whose entry
  (r, k') is the first array's entry (r, k') when k' < A, and the second array's entry (r, k' - A) otherwise.
  Generic in R, A, B, C and in the entries' type.
-/
import Idealize.ShloMosaic.Lib.Pipeline.Value
import Idealize.ShloMosaic.Lib.ValueIdx

noncomputable section

namespace Cert.LibConcatCols

open Idealize.ShloMosaic Idealize.ShloMosaic.ValueIdx

variable {α : Type}

/-- An entry whose column lies in the first piece is the first piece's entry at the same row and column. -/
theorem concat_cols_left {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin A) (k' : Fin C) (hk : k'.val = k.val) :
    concatenate ⟨2, ![R, C]⟩ 1 [⟨⟨2, ![R, A]⟩, a⟩, ⟨⟨2, ![R, B]⟩, b⟩] h (ix2 r k') = a (ix2 r k) :=
  concatenate_pair_apply_left 1 a b h (ix2 r k') rfl (ix2 r k) fun ax => by
    match ax with
    | ⟨0, _⟩ => rfl
    | ⟨1, _⟩ => exact hk.symm

/-- An entry whose column lies in the second piece is the second piece's entry at the same row, the column moved back
    by the first piece's width. -/
theorem concat_cols_right {R A B C : Nat} (a : (⟨2, ![R, A]⟩ : Shape).Idx → α) (b : (⟨2, ![R, B]⟩ : Shape).Idx → α)
    (h : Shape.Concatenates [⟨2, ![R, A]⟩, ⟨2, ![R, B]⟩] ⟨2, ![R, C]⟩ 1) (r : Fin R) (k : Fin B) (k' : Fin C) (hk : k'.val = A + k.val) :
    concatenate ⟨2, ![R, C]⟩ 1 [⟨⟨2, ![R, A]⟩, a⟩, ⟨⟨2, ![R, B]⟩, b⟩] h (ix2 r k') = b (ix2 r k) :=
  concatenate_pair_apply_right 1 a b h (ix2 r k') rfl rfl (ix2 r k)
    (fun ax hne => by
      match ax with
      | ⟨0, _⟩ => rfl
      | ⟨1, _⟩ => exact absurd rfl hne)
    (by show k.val + A = k'.val; omega)

end Cert.LibConcatCols

end
-- ==== Proof.RefValue.lean ====
/-
  The reference program's value is the specification function.

  The reference is read one operation at a time at a symbolic entry (p, n): each pointwise operation is its
  scalar operation at the same entry, each broadcast reads its operand at the entry's column, the transpose swaps
  the two coordinates, each matrix product is a finite sum over the contracted axis, and the side-by-side join of
  c (1024 columns) and z (2048 columns) is read through the split of a sum over 3072 positions into the sum over
  the first 1024 and the sum over the last 2048.  Only rewriting at a symbolic index is used; nothing is finite
  or evaluated.
-/
import proofs.«126435_j43379169689842_2_alg».proof.Proof.Gen.ReferenceIdeal.Read
import proofs.«126435_j43379169689842_2_alg».proof.Proof.Spec
import proofs.«126435_j43379169689842_2_alg».proof.Proof.LibConcatCols

noncomputable section
namespace Cert.Wave.RefValue
open Idealize.ShloMosaic Idealize.ShloMosaic.ValueIdx Cert.ReferenceIdeal Cert.ReferenceIdeal.Read

/-! ## Where each operation reads its operands, at an entry given by its coordinates -/

theorem lidx3 (p : Fin 4096) (n : Fin 2048) (k : Fin 1024) : lidx_main_v3 (ix2 p n) k = ix2 p k :=
  funext fun a => Fin.ext (by match a with | ⟨0, _⟩ => rfl | ⟨1, _⟩ => rfl)
theorem ridx3 (p : Fin 4096) (n : Fin 2048) (k : Fin 1024) : ridx_main_v3 (ix2 p n) k = ix2 k n :=
  funext fun a => Fin.ext (by match a with | ⟨0, _⟩ => rfl | ⟨1, _⟩ => rfl)
theorem idx5 (p : Fin 4096) (n : Fin 2048) : idx_main_v5 (ix2 p n) = ix2 (0 : Fin 1) n :=
  funext fun a => Fin.ext (by match a with | ⟨0, _⟩ => rfl | ⟨1, _⟩ => rfl)
theorem idx4 (n : Fin 2048) : idx_main_v4 (ix2 (0 : Fin 1) n) = ix1 n :=
  funext fun a => Fin.ext (by match a with | ⟨0, _⟩ => rfl)
theorem idx9 (p : Fin 4096) (n : Fin 2048) : idx_main_v9 (ix2 p n) = ix2 (0 : Fin 1) n :=
  funext fun a => Fin.ext (by match a with | ⟨0, _⟩ => rfl | ⟨1, _⟩ => rfl)
theorem idx8 (n : Fin 2048) : idx_main_v8 (ix2 (0 : Fin 1) n) = ix1 n :=
  funext fun a => Fin.ext (by match a with | ⟨0, _⟩ => rfl)
theorem lidx13 (p : Fin 4096) (n : Fin 2048) (r : Fin 512) : lidx_main_v13 (ix2 p n) r = ix2 p r :=
  funext fun a => Fin.ext (by match a with | ⟨0, _⟩ => rfl | ⟨1, _⟩ => rfl)
theorem ridx13 (p : Fin 4096) (n : Fin 2048) (r : Fin 512) : ridx_main_v13 (ix2 p n) r = ix2 r n :=
  funext fun a => Fin.ext (by match a with | ⟨0, _⟩ => rfl | ⟨1, _⟩ => rfl)
theorem idx12 (r : Fin 512) (n : Fin 2048) : idx_main_v12 (ix2 r n) = ix2 n r :=
  funext fun a => Fin.ext (by match a with | ⟨0, _⟩ => rfl | ⟨1, _⟩ => rfl)
theorem lidx11 (p : Fin 4096) (r : Fin 512) (k : Fin 2048) : lidx_main_v11 (ix2 p r) k = ix2 p k :=
  funext fun a => Fin.ext (by match a with | ⟨0, _⟩ => rfl | ⟨1, _⟩ => rfl)
theorem ridx11 (p : Fin 4096) (r : Fin 512) (k : Fin 2048) : ridx_main_v11 (ix2 p r) k = ix2 k r :=
  funext fun a => Fin.ext (by match a with | ⟨0, _⟩ => rfl | ⟨1, _⟩ => rfl)
theorem lidx16 (p : Fin 4096) (n : Fin 2048) (k : Fin 3072) : lidx_main_v16 (ix2 p n) k = ix2 p k :=
  funext fun a => Fin.ext (by match a with | ⟨0, _⟩ => rfl | ⟨1, _⟩ => rfl)
theorem ridx16 (p : Fin 4096) (n : Fin 2048) (k : Fin 3072) : ridx_main_v16 (ix2 p n) k = ix2 k n :=
  funext fun a => Fin.ext (by match a with | ⟨0, _⟩ => rfl | ⟨1, _⟩ => rfl)
theorem idx18 (p : Fin 4096) (n : Fin 2048) : idx_main_v18 (ix2 p n) = ix2 (0 : Fin 1) n :=
  funext fun a => Fin.ext (by match a with | ⟨0, _⟩ => rfl | ⟨1, _⟩ => rfl)
theorem idx17 (n : Fin 2048) : idx_main_v17 (ix2 (0 : Fin 1) n) = ix1 n :=
  funext fun a => Fin.ext (by match a with | ⟨0, _⟩ => rfl)

/-! ## The three pieces of the update at an entry -/

/-- The modulation: tanh of row p of c times column n of Wmod, plus the bias at n. -/
theorem modulation_at (x2 : (⟨S4096x1024, .f32⟩ : BufTy).Contents (Elt Ideal)) (x6 : (⟨S1024x2048, .f32⟩ : BufTy).Contents (Elt Ideal))
    (x7 : (⟨S2048, .f32⟩ : BufTy).Contents (Elt Ideal)) (p : Fin 4096) (n : Fin 2048) :
    val_main_v7 (F := Ideal) x2 x6 x7 (ix2 p n)
      = Ideal.tanh ((∑ k : Fin 1024, x2 (ix2 p k) * x6 (ix2 k n)) + x7 (ix1 n)) := by
  rw [val_main_v7_apply, val_main_v6_apply, val_main_v3_apply, val_main_v5_apply, val_main_v4_apply, idx5, idx4]
  simp only [lidx3, ridx3, Ideal.hostUnary_tanh_def, Ideal.addf_def]

/-- The state term: the scaled diagonal times the previous state, plus the low-rank product. -/
theorem state_at (x0 : (⟨S4096x2048, .f32⟩ : BufTy).Contents (Elt Ideal)) (x3 : (⟨S2048, .f32⟩ : BufTy).Contents (Elt Ideal))
    (x4 x5 : (⟨S2048x512, .f32⟩ : BufTy).Contents (Elt Ideal)) (p : Fin 4096) (n : Fin 2048) :
    val_main_v14 (F := Ideal) x0 x3 x4 x5 (ix2 p n)
      = (Ideal.tanh (x3 (ix1 n)) * κ) * x0 (ix2 p n)
          + ∑ r : Fin 512, (∑ k : Fin 2048, x0 (ix2 p k) * x5 (ix2 k r)) * x4 (ix2 n r) := by
  rw [val_main_v14_apply, val_main_v10_apply, val_main_v9_apply, idx9, val_main_v8_apply, idx8, val_main_v2_apply,
    val_main_v0_apply, val_main_v1_apply, val_main_cst_apply, val_main_v13_apply]
  simp only [lidx13, ridx13, val_main_v11_apply, val_main_v12_apply, idx12, lidx11, ridx11,
    Ideal.hostUnary_tanh_def, Ideal.addf_def, Ideal.mulf_def, Ideal.ofBits_def]

/-- The joined array at a column of its first piece is c at that column. -/
theorem cat_lo (x1 : (⟨S4096x2048, .f32⟩ : BufTy).Contents (Elt Ideal)) (x2 : (⟨S4096x1024, .f32⟩ : BufTy).Contents (Elt Ideal))
    (p : Fin 4096) (k : Fin 1024) : val_main_v15 (F := Ideal) x1 x2 (ix2 p (lo k)) = x2 (ix2 p k) := by
  unfold val_main_v15
  exact Cert.LibConcatCols.concat_cols_left x2 x1 Gen.concatenates_S4096x1024_S4096x2048_S4096x3072_d1 p k (lo k) rfl

/-- The joined array at a column of its second piece is z at that column moved back by 1024. -/
theorem cat_hi (x1 : (⟨S4096x2048, .f32⟩ : BufTy).Contents (Elt Ideal)) (x2 : (⟨S4096x1024, .f32⟩ : BufTy).Contents (Elt Ideal))
    (p : Fin 4096) (k : Fin 2048) : val_main_v15 (F := Ideal) x1 x2 (ix2 p (hi k)) = x1 (ix2 p k) := by
  unfold val_main_v15
  exact Cert.LibConcatCols.concat_cols_right x2 x1 Gen.concatenates_S4096x1024_S4096x2048_S4096x3072_d1 p k (hi k) rfl

/-- The input term: the joined row times column n of WB, as the two partial products, plus the bias at n. -/
theorem input_at (x1 : (⟨S4096x2048, .f32⟩ : BufTy).Contents (Elt Ideal)) (x2 : (⟨S4096x1024, .f32⟩ : BufTy).Contents (Elt Ideal))
    (x8 : (⟨S3072x2048, .f32⟩ : BufTy).Contents (Elt Ideal)) (x9 : (⟨S2048, .f32⟩ : BufTy).Contents (Elt Ideal))
    (p : Fin 4096) (n : Fin 2048) :
    val_main_v19 (F := Ideal) x1 x2 x8 x9 (ix2 p n)
      = ((∑ k : Fin 1024, x2 (ix2 p k) * x8 (ix2 (lo k) n)) + ∑ k : Fin 2048, x1 (ix2 p k) * x8 (ix2 (hi k) n))
          + x9 (ix1 n) := by
  rw [val_main_v19_apply, val_main_v16_apply, val_main_v18_apply, idx18, val_main_v17_apply, idx17, Cert.Wave.sum_split]
  simp only [lidx16, ridx16, cat_lo, cat_hi, Ideal.addf_def]

/-- The reference's value is the specification function. -/
theorem ref_eq (x0 x1 : (⟨S4096x2048, .f32⟩ : BufTy).Contents (Elt Ideal)) (x2 : (⟨S4096x1024, .f32⟩ : BufTy).Contents (Elt Ideal))
    (x3 : (⟨S2048, .f32⟩ : BufTy).Contents (Elt Ideal)) (x4 x5 : (⟨S2048x512, .f32⟩ : BufTy).Contents (Elt Ideal))
    (x6 : (⟨S1024x2048, .f32⟩ : BufTy).Contents (Elt Ideal)) (x7 : (⟨S2048, .f32⟩ : BufTy).Contents (Elt Ideal))
    (x8 : (⟨S3072x2048, .f32⟩ : BufTy).Contents (Elt Ideal)) (x9 : (⟨S2048, .f32⟩ : BufTy).Contents (Elt Ideal)) :
    val_main_v21 (F := Ideal) x0 x1 x2 x3 x4 x5 x6 x7 x8 x9 = Cert.Wave.G x0 x1 x2 x3 x4 x5 x6 x7 x8 x9 := by
  funext j
  obtain ⟨p, n, rfl⟩ : ∃ (p : Fin 4096) (n : Fin 2048), j = ix2 p n := ⟨j 0, j 1, eq_ix2 j⟩
  rw [Cert.Wave.G_ix2, val_main_v21_apply, val_main_v20_apply, modulation_at, state_at, input_at]
  unfold Cert.Wave.Gat
  simp only [Ideal.addf_def, Ideal.mulf_def]

end Cert.Wave.RefValue
end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«126435_j43379169689842_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.LibRowLayout.lean ====
/-
  Two layout facts about one-row arrays, each read at an entry given by its coordinates: a one-row array `[1, b]`
  spread over the rows of an `[a, b]` array, and a vector `[b]` viewed as a one-row array `[1, b]`.  They hold for
  any extents and for entries of any type.  (The companions for one-column arrays are the keepdims facts.)
-/
import Idealize.ShloMosaic.Lib.Pipeline.Value
import Idealize.ShloMosaic.Lib.ValueIdx

noncomputable section

namespace Cert.LibRowLayout

open Idealize.ShloMosaic Idealize.ShloMosaic.ValueIdx

/-- A `[1, b]` row spread over `a` rows reads, at `(i, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (i : Fin a) (j : Fin b) :
    broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- A `[b]` vector viewed as a one-row array reads, at `(u, j)`, the vector's entry `j`: both sit at row-major position `j`. -/
theorem shapeCast_b_1b_apply {α : Type} {b : ℕ} (x : (⟨1, ![b]⟩ : Shape).Idx → α) (h : (⟨1, ![b]⟩ : Shape).ShapeCasts ⟨2, ![1, b]⟩)
    (u : Fin 1) (j : Fin b) : shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu, Nat.zero_mul, Nat.zero_add])

end Cert.LibRowLayout

end
-- ==== Proof.ChunkV.lean ====
/-
  One 512-column chunk of the update, as the kernel body computes it, read at an entry.

  The body cuts the 2048 output columns into four chunks of 512 and, for each, forms the same tree of vector
  operations from (a) the chunk's columns of the batch block of `w` and of the three rows (scaled diagonal, two
  biases), (b) the whole batch blocks of `c`, `z`, `w`, (c) the whole of AV, and (d) the chunk's columns of AUᵀ,
  Wmod and the two row ranges of WB.  `chunkV` is that tree over those twelve operands; roundings to bf16 are part
  of it and are the identity on the extended reals.  `chunkV_apply` reads it at entry (p, q): five matrix products
  into the zero accumulator become five finite sums, a one-row operand spread over the rows is read at its column.
-/
import proofs.«126435_j43379169689842_2_alg».proof.Proof.Gen.KernelIdeal
import proofs.«126435_j43379169689842_2_alg».proof.Proof.LibPlainDotFormats
import proofs.«126435_j43379169689842_2_alg».proof.Proof.LibRowLayout
import Idealize.ShloMosaic.Lib.Pipeline.Value

noncomputable section

namespace Cert.Wave.Chunk

open Idealize.ShloMosaic Idealize.ShloMosaic.ValueIdx Cert.KernelIdeal Cert.LibPlainDot

variable {F : FTy → Type} [FloatOps F]

/-- The low-rank projection of the batch block: `w · AV`, one row of 512 numbers per batch row. -/
def lowRankV (w : Vec F S256x2048 .f32) (av : Vec F S2048x512 .bf16) : FVec F S256x512 .f32 :=
  matmul dot_S256x2048_S2048x512_S256x512_1_0_0_1_n_n none (truncf .bf16 w Gen.bitsLt_bf16_f32)
    (shapeCast S2048x512 av Gen.shapeCasts_S2048x512_S2048x512) (constant S256x512 .f32 0x00000000#32)

/-- The chunk's tree of vector operations. -/
def chunkV (wS : FVec F S256x512 .f32) (adS bmS bbS : FVec F S1x512 .f32)
    (c : Vec F S256x1024 .f32) (z w : Vec F S256x2048 .f32) (av : Vec F S2048x512 .bf16) (aut : Vec F S512x512 .bf16)
    (wm wbc : Vec F S1024x512 .bf16) (wbz : Vec F S2048x512 .bf16) : FVec F S256x512 .f32 :=
  addf
    (mulf
      (tanh (addf
        (matmul dot_S256x1024_S1024x512_S256x512_1_0_0_1_n_n none (truncf .bf16 c Gen.bitsLt_bf16_f32)
          (shapeCast S1024x512 wm Gen.shapeCasts_S1024x512_S1024x512) (constant S256x512 .f32 0x00000000#32))
        (broadcastTo S256x512 bmS Gen.broadcasts_S1x512_S256x512)))
      (addf (mulf (broadcastTo S256x512 adS Gen.broadcasts_S1x512_S256x512) wS)
        (matmul dot_S256x512_S512x512_S256x512_1_0_0_1_n_n none
          (truncf .bf16 (lowRankV w av) Gen.bitsLt_bf16_f32)
          (shapeCast S512x512 aut Gen.shapeCasts_S512x512_S512x512) (constant S256x512 .f32 0x00000000#32))))
    (addf
      (addf
        (matmul dot_S256x1024_S1024x512_S256x512_1_0_0_1_n_n none (truncf .bf16 c Gen.bitsLt_bf16_f32)
          (shapeCast S1024x512 wbc Gen.shapeCasts_S1024x512_S1024x512) (constant S256x512 .f32 0x00000000#32))
        (matmul dot_S256x2048_S2048x512_S256x512_1_0_0_1_n_n none (truncf .bf16 z Gen.bitsLt_bf16_f32)
          (shapeCast S2048x512 wbz Gen.shapeCasts_S2048x512_S2048x512) (constant S256x512 .f32 0x00000000#32)))
      (broadcastTo S256x512 bbS Gen.broadcasts_S1x512_S256x512))

/-- The three contractions are plain products: second axis of the left operand against the first of the right. -/
theorem plain1024 : Plain dot_S256x1024_S1024x512_S256x512_1_0_0_1_n_n := ⟨rfl, rfl, rfl, rfl, rfl, rfl⟩
theorem plain2048 : Plain dot_S256x2048_S2048x512_S256x512_1_0_0_1_n_n := ⟨rfl, rfl, rfl, rfl, rfl, rfl⟩
theorem plain512 : Plain dot_S256x512_S512x512_S256x512_1_0_0_1_n_n := ⟨rfl, rfl, rfl, rfl, rfl, rfl⟩

/-- The chunk at entry (p, q), over the extended reals. -/
theorem chunkV_apply (wS : FVec Ideal S256x512 .f32) (adS bmS bbS : FVec Ideal S1x512 .f32)
    (c : Vec Ideal S256x1024 .f32) (z w : Vec Ideal S256x2048 .f32) (av : Vec Ideal S2048x512 .bf16) (aut : Vec Ideal S512x512 .bf16)
    (wm wbc : Vec Ideal S1024x512 .bf16) (wbz : Vec Ideal S2048x512 .bf16) (p : Fin 256) (q : Fin 512) :
    chunkV wS adS bmS bbS c z w av aut wm wbc wbz (ix2 p q)
      = Ideal.tanh ((∑ k : Fin 1024, c (ix2 p k) * wm (ix2 k q)) + bmS (ix2 (0 : Fin 1) q))
          * (adS (ix2 (0 : Fin 1) q) * wS (ix2 p q)
              + ∑ r : Fin 512, (∑ k : Fin 2048, w (ix2 p k) * av (ix2 k r)) * aut (ix2 r q))
        + (((∑ k : Fin 1024, c (ix2 p k) * wbc (ix2 k q)) + ∑ k : Fin 2048, z (ix2 p k) * wbz (ix2 k q)) + bbS (ix2 (0 : Fin 1) q)) := by
  have m1 := plain1024.matmul_zero_apply_formats none (truncf .bf16 c Gen.bitsLt_bf16_f32 : FVec Ideal S256x1024 .bf16)
    (shapeCast S1024x512 wm Gen.shapeCasts_S1024x512_S1024x512 : FVec Ideal S1024x512 .bf16) p q
  have m3 := plain1024.matmul_zero_apply_formats none (truncf .bf16 c Gen.bitsLt_bf16_f32 : FVec Ideal S256x1024 .bf16)
    (shapeCast S1024x512 wbc Gen.shapeCasts_S1024x512_S1024x512 : FVec Ideal S1024x512 .bf16) p q
  have m4 := plain2048.matmul_zero_apply_formats none (truncf .bf16 z Gen.bitsLt_bf16_f32 : FVec Ideal S256x2048 .bf16)
    (shapeCast S2048x512 wbz Gen.shapeCasts_S2048x512_S2048x512 : FVec Ideal S2048x512 .bf16) p q
  have mw : ∀ r : Fin 512, lowRankV (F := Ideal) w av (ix2 p r) = _ := fun r => plain2048.matmul_zero_apply_formats none (truncf .bf16 w Gen.bitsLt_bf16_f32 : FVec Ideal S256x2048 .bf16)
    (shapeCast S2048x512 av Gen.shapeCasts_S2048x512_S2048x512 : FVec Ideal S2048x512 .bf16) p r
  have m2 := plain512.matmul_zero_apply_formats none
    (truncf .bf16 (lowRankV (F := Ideal) w av) Gen.bitsLt_bf16_f32 : FVec Ideal S256x512 .bf16)
    (shapeCast S512x512 aut Gen.shapeCasts_S512x512_S512x512 : FVec Ideal S512x512 .bf16) p q
  have b1 := Cert.LibRowLayout.broadcastTo_1b_ab_apply bmS Gen.broadcasts_S1x512_S256x512 p q
  have b2 := Cert.LibRowLayout.broadcastTo_1b_ab_apply adS Gen.broadcasts_S1x512_S256x512 p q
  have b3 := Cert.LibRowLayout.broadcastTo_1b_ab_apply bbS Gen.broadcasts_S1x512_S256x512 p q
  have e1 : (∑ k : Fin 1024, (truncf .bf16 c Gen.bitsLt_bf16_f32 : FVec Ideal S256x1024 .bf16) (ix2 p k)
      * (shapeCast S1024x512 wm Gen.shapeCasts_S1024x512_S1024x512 : FVec Ideal S1024x512 .bf16) (ix2 k q))
      = ∑ k : Fin 1024, c (ix2 p k) * wm (ix2 k q) := by rw [shapeCast_self]; rfl
  have e3 : (∑ k : Fin 1024, (truncf .bf16 c Gen.bitsLt_bf16_f32 : FVec Ideal S256x1024 .bf16) (ix2 p k)
      * (shapeCast S1024x512 wbc Gen.shapeCasts_S1024x512_S1024x512 : FVec Ideal S1024x512 .bf16) (ix2 k q))
      = ∑ k : Fin 1024, c (ix2 p k) * wbc (ix2 k q) := by rw [shapeCast_self]; rfl
  have e4 : (∑ k : Fin 2048, (truncf .bf16 z Gen.bitsLt_bf16_f32 : FVec Ideal S256x2048 .bf16) (ix2 p k)
      * (shapeCast S2048x512 wbz Gen.shapeCasts_S2048x512_S2048x512 : FVec Ideal S2048x512 .bf16) (ix2 k q))
      = ∑ k : Fin 2048, z (ix2 p k) * wbz (ix2 k q) := by rw [shapeCast_self]; rfl
  have ew : ∀ r : Fin 512, lowRankV (F := Ideal) w av (ix2 p r) = ∑ k : Fin 2048, w (ix2 p k) * av (ix2 k r) := fun r =>
    (mw r).trans (by rw [shapeCast_self]; rfl)
  have e2 : (∑ r : Fin 512, (truncf .bf16 (lowRankV (F := Ideal) w av) Gen.bitsLt_bf16_f32 : FVec Ideal S256x512 .bf16) (ix2 p r)
      * (shapeCast S512x512 aut Gen.shapeCasts_S512x512_S512x512 : FVec Ideal S512x512 .bf16) (ix2 r q))
      = ∑ r : Fin 512, (∑ k : Fin 2048, w (ix2 p k) * av (ix2 k r)) * aut (ix2 r q) := by
    rw [shapeCast_self]
    exact Finset.sum_congr rfl fun r _ => congrArg (· * aut (ix2 r q)) (ew r)
  unfold chunkV
  exact congrArg₂ (· + ·)
    (congrArg₂ (· * ·) (congrArg Ideal.tanh (congrArg₂ (· + ·) (m1.trans e1) b1))
      (congrArg₂ (· + ·) (congrArg (· * wS (ix2 p q)) b2) (m2.trans e2)))
    (congrArg₂ (· + ·) (congrArg₂ (· + ·) (m3.trans e3) (m4.trans e4)) b3)

end Cert.Wave.Chunk

end
-- ==== Proof.LibColumns.lean ====
/-
  Column ranges of a two-axis array, read at an entry.

  Taking `W` consecutive columns starting at column `o` of an `[R, C]` array — as a unit-stride slice of a value,
  or as a load through the unit-stride rectangle at offsets `(0, o)` — gives an array whose entry `(p, q)` is the
  original entry `(p, o + q)`; and that rectangle places its own entry `(p, q)` at `(p, o + q)`.  Generic in the
  extents, the offset and the entries' type.
-/
import Idealize.ShloMosaic.Lib.Pipeline.Value
import Idealize.ShloMosaic.Lib.ValueIdx

noncomputable section

namespace Cert.LibColumns

open Idealize.ShloMosaic Idealize.ShloMosaic.ValueIdx

variable {α : Type}

/-- A slice of `W` columns from column `o` (all rows) at `(p, q)` is the operand at `(p, o + q)`. -/
theorem slice_cols {R R' C W : Nat} (o : Nat) (x : (⟨2, ![R, C]⟩ : Shape).Idx → α)
    (h : (⟨2, ![R, C]⟩ : Shape).Slices ![0, o] ⟨2, ![R', W]⟩) (p : Fin R') (q : Fin W) (p' : Fin R) (q' : Fin C)
    (hp : p'.val = p.val) (hq : q'.val = o + q.val) :
    extractStridedSlice ⟨2, ![R', W]⟩ ![0, o] x h (ix2 p q) = x (ix2 p' q') :=
  extractStridedSlice_apply ![0, o] x h (ix2 p q) (ix2 p' q') fun a => by
    match a with
    | ⟨0, _⟩ => show p'.val = 0 + p.val; omega
    | ⟨1, _⟩ => exact hq

/-- The rectangle of `R'` rows and `W` columns at offsets `(0, o)` places its entry `(p, q)` at `(p, o + q)`. -/
theorem idx_cols {R R' C W : Nat} (o : Nat)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    (Rect.unit (s := ⟨2, ![R, C]⟩) ![0, o] ![R', W] inb).idx (ix2 p q) = ix2 p' q' :=
  funext fun a => Fin.ext (by
    match a with
    | ⟨0, _⟩ => show 0 + 1 * p.val = p'.val; omega
    | ⟨1, _⟩ => show o + 1 * q.val = q'.val; omega)

/-- A load through that rectangle at `(p, q)` reads the contents at `(p, o + q)`. -/
theorem ld_cols {Val : EltTy → Type} {e : EltTy} {R R' C W : Nat} (o : Nat) (X : (⟨2, ![R, C]⟩ : Shape).Idx → Val e)
    (inb : ∀ a, (![0, o] : Fin 2 → Nat) a + (![R', W] : Fin 2 → Nat) a ≤ (⟨2, ![R, C]⟩ : Shape).size a)
    (p : Fin R') (q : Fin W) (p' : Fin R) (q' : Fin C) (hp : p'.val = p.val) (hq : q'.val = o + q.val) :
    View.ld X (Rect.unit (s := ⟨2, ![R, C]⟩) ![0, o] ![R', W] inb) (ix2 p q) = X (ix2 p' q') :=
  congrArg X (idx_cols o inb p q p' q' hp hq)

end Cert.LibColumns

end
-- ==== Proof.Pieces.lean ====
/-
  What the kernel body leaves in its output block: the block function `E`.

  The body stores four pieces, one per chunk of 512 columns.  Each stored value is the chunk tree `chunkV` of the
  loaded blocks (`pay_chunk0` … `pay_chunk3`: the printed payloads unfold to it), with the chunk's columns of the
  batch block of `w`, of the three one-row operands, and of AUᵀ, Wmod and the two row ranges of WB.  A chunk tree
  over columns `o … o + 511` is `E` at column `o + q` (`chunk_piece`).  The four column rectangles tile the block,
  so the contents the stores leave are `E` everywhere (`out_eq`).
-/
import proofs.«126435_j43379169689842_2_alg».proof.Proof.Gen.KernelIdeal.Frame
import proofs.«126435_j43379169689842_2_alg».proof.Proof.ChunkV
import proofs.«126435_j43379169689842_2_alg».proof.Proof.LibColumns
import proofs.«126435_j43379169689842_2_alg».proof.Proof.Spec

noncomputable section

namespace Cert.Wave.Pieces

open Idealize.ShloMosaic Idealize.ShloMosaic.ValueIdx Cert.KernelIdeal Cert.KernelIdeal.Gen Cert.Wave Cert.Wave.Chunk
open Cert.LibColumns

/-- Column `o + q` of the block: column `q` of the chunk that starts at column `o`. -/
abbrev colAt (o : Nat) (ho : o + 512 ≤ 2048) (q : Fin 512) : Fin 2048 := ⟨o + q.val, by have := q.isLt; omega⟩

/-! ## The four stored values are the chunk tree -/

section Payloads

variable {F : FTy → Type} [FloatOps F]
variable (v0 v2 : Vec F S256x2048 .f32) (v1 : Vec F S256x1024 .f32) (v6 v8 v10 : Vec F S1x2048 .f32)
  (v12 : Vec F S2048x512 .bf16) (a : Vec F S512x512 .bf16) (b b' : Vec F S1024x512 .bf16) (d : Vec F S2048x512 .bf16)

theorem pay_chunk0 :
    k0_pay11 (k0_pay3 v2) (k0_pay6 v10) (k0_pay8 v0 v6 v12 a) (k0_pay9 v1 v8 b) (k0_pay10 v1 b') d
      = chunkV (extractStridedSlice S256x512 ![0, 0] v0 slices_S256x2048_o0_0_S256x512)
          (extractStridedSlice S1x512 ![0, 0] (shapeCast S1x2048 v6 shapeCasts_S1x2048_S1x2048) slices_S1x2048_o0_0_S1x512)
          (extractStridedSlice S1x512 ![0, 0] (shapeCast S1x2048 v8 shapeCasts_S1x2048_S1x2048) slices_S1x2048_o0_0_S1x512)
          (extractStridedSlice S1x512 ![0, 0] (shapeCast S1x2048 v10 shapeCasts_S1x2048_S1x2048) slices_S1x2048_o0_0_S1x512)
          v1 v2 v0 v12 a b b' d := rfl

theorem pay_chunk1 :
    k0_pay12 v0 (k0_pay2 v1) (k0_pay3 v2) (k0_pay4 v6) (k0_pay5 v8) (k0_pay6 v10) (k0_pay7 v0 v12) a b b' d
      = chunkV (extractStridedSlice S256x512 ![0, 512] v0 slices_S256x2048_o0_512_S256x512)
          (extractStridedSlice S1x512 ![0, 512] (shapeCast S1x2048 v6 shapeCasts_S1x2048_S1x2048) slices_S1x2048_o0_512_S1x512)
          (extractStridedSlice S1x512 ![0, 512] (shapeCast S1x2048 v8 shapeCasts_S1x2048_S1x2048) slices_S1x2048_o0_512_S1x512)
          (extractStridedSlice S1x512 ![0, 512] (shapeCast S1x2048 v10 shapeCasts_S1x2048_S1x2048) slices_S1x2048_o0_512_S1x512)
          v1 v2 v0 v12 a b b' d := rfl

theorem pay_chunk2 :
    k0_pay13 v0 (k0_pay2 v1) (k0_pay3 v2) (k0_pay4 v6) (k0_pay5 v8) (k0_pay6 v10) (k0_pay7 v0 v12) a b b' d
      = chunkV (extractStridedSlice S256x512 ![0, 1024] v0 slices_S256x2048_o0_1024_S256x512)
          (extractStridedSlice S1x512 ![0, 1024] (shapeCast S1x2048 v6 shapeCasts_S1x2048_S1x2048) slices_S1x2048_o0_1024_S1x512)
          (extractStridedSlice S1x512 ![0, 1024] (shapeCast S1x2048 v8 shapeCasts_S1x2048_S1x2048) slices_S1x2048_o0_1024_S1x512)
          (extractStridedSlice S1x512 ![0, 1024] (shapeCast S1x2048 v10 shapeCasts_S1x2048_S1x2048) slices_S1x2048_o0_1024_S1x512)
          v1 v2 v0 v12 a b b' d := rfl

theorem pay_chunk3 :
    k0_pay1 (k0_pay2 v1) (k0_pay3 v2) (k0_pay6 v10) (k0_pay14 v0 (k0_pay4 v6) (k0_pay7 v0 v12) a) (k0_pay15 (k0_pay2 v1) b)
        (k0_pay16 (k0_pay5 v8)) b' d
      = chunkV (extractStridedSlice S256x512 ![0, 1536] v0 slices_S256x2048_o0_1536_S256x512)
          (extractStridedSlice S1x512 ![0, 1536] (shapeCast S1x2048 v6 shapeCasts_S1x2048_S1x2048) slices_S1x2048_o0_1536_S1x512)
          (extractStridedSlice S1x512 ![0, 1536] (shapeCast S1x2048 v8 shapeCasts_S1x2048_S1x2048) slices_S1x2048_o0_1536_S1x512)
          (extractStridedSlice S1x512 ![0, 1536] (shapeCast S1x2048 v10 shapeCasts_S1x2048_S1x2048) slices_S1x2048_o0_1536_S1x512)
          v1 v2 v0 v12 a b b' d := rfl

end Payloads

/-! ## A chunk tree over columns `o … o + 511` is the block function at column `o + q` -/

section Chunk

variable (x0 x1 : Vec Ideal S256x2048 .f32) (x2 : Vec Ideal S256x1024 .f32) (x3 : Vec Ideal S1x2048 .f32)
  (x4 : Vec Ideal S2048x512 .bf16) (x5 : Vec Ideal S512x2048 .bf16) (x6 : Vec Ideal S1024x2048 .bf16)
  (x7 : Vec Ideal S1x2048 .f32) (x8 : Vec Ideal S1024x2048 .bf16) (x9 : Vec Ideal S2048x2048 .bf16) (x10 : Vec Ideal S1x2048 .f32)

/-- With the twelve operands what their names say — the chunk's columns of the blocks — the chunk at (p, q) is the
    block function at (p, o + q). -/
theorem chunk_eq (o : Nat) (ho : o + 512 ≤ 2048)
    (wS : FVec Ideal S256x512 .f32) (adS bmS bbS : FVec Ideal S1x512 .f32) (aut : Vec Ideal S512x512 .bf16)
    (wmS wbcS : Vec Ideal S1024x512 .bf16) (wbzS : Vec Ideal S2048x512 .bf16)
    (hw : ∀ (p : Fin 256) (q : Fin 512), wS (ix2 p q) = x0 (ix2 p (colAt o ho q)))
    (had : ∀ q : Fin 512, adS (ix2 (0 : Fin 1) q) = x3 (ix2 (0 : Fin 1) (colAt o ho q)))
    (hbm : ∀ q : Fin 512, bmS (ix2 (0 : Fin 1) q) = x7 (ix2 (0 : Fin 1) (colAt o ho q)))
    (hbb : ∀ q : Fin 512, bbS (ix2 (0 : Fin 1) q) = x10 (ix2 (0 : Fin 1) (colAt o ho q)))
    (haut : ∀ (r q : Fin 512), aut (ix2 r q) = x5 (ix2 r (colAt o ho q)))
    (hwm : ∀ (k : Fin 1024) (q : Fin 512), wmS (ix2 k q) = x6 (ix2 k (colAt o ho q)))
    (hwbc : ∀ (k : Fin 1024) (q : Fin 512), wbcS (ix2 k q) = x8 (ix2 k (colAt o ho q)))
    (hwbz : ∀ (k : Fin 2048) (q : Fin 512), wbzS (ix2 k q) = x9 (ix2 k (colAt o ho q)))
    (p : Fin 256) (q : Fin 512) :
    chunkV wS adS bmS bbS x2 x1 x0 x4 aut wmS wbcS wbzS (ix2 p q) = E x0 x1 x2 x3 x4 x5 x6 x7 x8 x9 x10 (ix2 p (colAt o ho q)) := by
  rw [chunkV_apply, E_ix2]
  unfold Eat
  simp only [hw, had, hbm, hbb, haut, hwm, hwbc, hwbz]

/-- The chunk tree of the blocks' columns `o … o + 511`, as the body forms it (slices of the loaded values, loads
    through column rectangles), is the block function at column `o + q`. -/
theorem chunk_piece (o : Nat) (ho : o + 512 ≤ 2048)
    (hs0 : S256x2048.Slices ![0, o] S256x512) (hs1 : S1x2048.Slices ![0, o] S1x512)
    (i5 : ∀ a, (![0, o] : Fin 2 → Nat) a + S512x512.size a ≤ S512x2048.size a)
    (i6 : ∀ a, (![0, o] : Fin 2 → Nat) a + S1024x512.size a ≤ S1024x2048.size a)
    (i9 : ∀ a, (![0, o] : Fin 2 → Nat) a + S2048x512.size a ≤ S2048x2048.size a)
    (p : Fin 256) (q : Fin 512) :
    chunkV (extractStridedSlice S256x512 ![0, o] x0 hs0) (extractStridedSlice S1x512 ![0, o] x3 hs1)
        (extractStridedSlice S1x512 ![0, o] x7 hs1) (extractStridedSlice S1x512 ![0, o] x10 hs1) x2 x1 x0 x4
        (View.ld x5 (Rect.unit (s := S512x2048) ![0, o] S512x512.size i5))
        (View.ld x6 (Rect.unit (s := S1024x2048) ![0, o] S1024x512.size i6))
        (View.ld x8 (Rect.unit (s := S1024x2048) ![0, o] S1024x512.size i6))
        (View.ld x9 (Rect.unit (s := S2048x2048) ![0, o] S2048x512.size i9)) (ix2 p q)
      = E x0 x1 x2 x3 x4 x5 x6 x7 x8 x9 x10 (ix2 p (colAt o ho q)) :=
  chunk_eq x0 x1 x2 x3 x4 x5 x6 x7 x8 x9 x10 o ho _ _ _ _ _ _ _ _
    (fun p q => slice_cols o x0 hs0 p q p (colAt o ho q) rfl rfl)
    (fun q => slice_cols o x3 hs1 (0 : Fin 1) q (0 : Fin 1) (colAt o ho q) rfl rfl)
    (fun q => slice_cols o x7 hs1 (0 : Fin 1) q (0 : Fin 1) (colAt o ho q) rfl rfl)
    (fun q => slice_cols o x10 hs1 (0 : Fin 1) q (0 : Fin 1) (colAt o ho q) rfl rfl)
    (fun r q => ld_cols o x5 i5 r q r (colAt o ho q) rfl rfl)
    (fun k q => ld_cols o x6 i6 k q k (colAt o ho q) rfl rfl)
    (fun k q => ld_cols o x8 i6 k q k (colAt o ho q) rfl rfl)
    (fun k q => ld_cols o x9 i9 k q k (colAt o ho q) rfl rfl) p q

/-! ## The four pieces are the block function on their columns, and together they are all of it -/

theorem hz : (![0, 0] : Fin 2 → Nat) = fun _ => 0 := funext fun a => by fin_cases a <;> rfl

theorem piece3 (x : r0_19.shape.Idx) :
    k0_pay1 (k0_pay2 (View.ld x2 r0_1)) (k0_pay3 (View.ld x1 r0_0)) (k0_pay6 (View.ld x10 r0_2)) (k0_pay14 (View.ld x0 r0_0) (k0_pay4 (View.ld x3 r0_2)) (k0_pay7 (View.ld x0 r0_0) (View.ld x4 r0_3)) (View.ld x5 r0_16)) (k0_pay15 (k0_pay2 (View.ld x2 r0_1)) (View.ld x6 r0_17)) (k0_pay16 (k0_pay5 (View.ld x7 r0_2))) (View.ld x8 r0_17) (View.ld x9 r0_18) x
      = E x0 x1 x2 x3 x4 x5 x6 x7 x8 x9 x10 (r0_19.emb x) := by
  obtain ⟨p, q, rfl⟩ : ∃ (p : Fin 256) (q : Fin 512), x = ix2 p q := ⟨x 0, x 1, eq_ix2 x⟩
  rw [pay_chunk3]
  simp only [View.ld_unit_zero (S := S256x2048) hz, View.ld_unit_zero (S := S256x1024) hz, View.ld_unit_zero (S := S1x2048) hz,
    View.ld_unit_zero (S := S2048x512) hz, shapeCast_self]
  refine (chunk_piece x0 x1 x2 x3 x4 x5 x6 x7 x8 x9 x10 1536 (by decide) _ _ _ _ _ p q).trans ?_
  exact congrArg (E x0 x1 x2 x3 x4 x5 x6 x7 x8 x9 x10) (idx_cols 1536 _ p q p (colAt 1536 (by decide) q) rfl rfl).symm

theorem piece2 (x : r0_15.shape.Idx) :
    k0_pay13 (View.ld x0 r0_0) (k0_pay2 (View.ld x2 r0_1)) (k0_pay3 (View.ld x1 r0_0)) (k0_pay4 (View.ld x3 r0_2)) (k0_pay5 (View.ld x7 r0_2)) (k0_pay6 (View.ld x10 r0_2)) (k0_pay7 (View.ld x0 r0_0) (View.ld x4 r0_3)) (View.ld x5 r0_12) (View.ld x6 r0_13) (View.ld x8 r0_13) (View.ld x9 r0_14) x
      = E x0 x1 x2 x3 x4 x5 x6 x7 x8 x9 x10 (r0_15.emb x) := by
  obtain ⟨p, q, rfl⟩ : ∃ (p : Fin 256) (q : Fin 512), x = ix2 p q := ⟨x 0, x 1, eq_ix2 x⟩
  rw [pay_chunk2]
  simp only [View.ld_unit_zero (S := S256x2048) hz, View.ld_unit_zero (S := S256x1024) hz, View.ld_unit_zero (S := S1x2048) hz,
    View.ld_unit_zero (S := S2048x512) hz, shapeCast_self]
  refine (chunk_piece x0 x1 x2 x3 x4 x5 x6 x7 x8 x9 x10 1024 (by decide) _ _ _ _ _ p q).trans ?_
  exact congrArg (E x0 x1 x2 x3 x4 x5 x6 x7 x8 x9 x10) (idx_cols 1024 _ p q p (colAt 1024 (by decide) q) rfl rfl).symm

theorem piece1 (x : r0_11.shape.Idx) :
    k0_pay12 (View.ld x0 r0_0) (k0_pay2 (View.ld x2 r0_1)) (k0_pay3 (View.ld x1 r0_0)) (k0_pay4 (View.ld x3 r0_2)) (k0_pay5 (View.ld x7 r0_2)) (k0_pay6 (View.ld x10 r0_2)) (k0_pay7 (View.ld x0 r0_0) (View.ld x4 r0_3)) (View.ld x5 r0_8) (View.ld x6 r0_9) (View.ld x8 r0_9) (View.ld x9 r0_10) x
      = E x0 x1 x2 x3 x4 x5 x6 x7 x8 x9 x10 (r0_11.emb x) := by
  obtain ⟨p, q, rfl⟩ : ∃ (p : Fin 256) (q : Fin 512), x = ix2 p q := ⟨x 0, x 1, eq_ix2 x⟩
  rw [pay_chunk1]
  simp only [View.ld_unit_zero (S := S256x2048) hz, View.ld_unit_zero (S := S256x1024) hz, View.ld_unit_zero (S := S1x2048) hz,
    View.ld_unit_zero (S := S2048x512) hz, shapeCast_self]
  refine (chunk_piece x0 x1 x2 x3 x4 x5 x6 x7 x8 x9 x10 512 (by decide) _ _ _ _ _ p q).trans ?_
  exact congrArg (E x0 x1 x2 x3 x4 x5 x6 x7 x8 x9 x10) (idx_cols 512 _ p q p (colAt 512 (by decide) q) rfl rfl).symm

theorem piece0 (x : r0_7.shape.Idx) :
    k0_pay11 (k0_pay3 (View.ld x1 r0_0)) (k0_pay6 (View.ld x10 r0_2)) (k0_pay8 (View.ld x0 r0_0) (View.ld x3 r0_2) (View.ld x4 r0_3) (View.ld x5 r0_4)) (k0_pay9 (View.ld x2 r0_1) (View.ld x7 r0_2) (View.ld x6 r0_5)) (k0_pay10 (View.ld x2 r0_1) (View.ld x8 r0_5)) (View.ld x9 r0_6) x
      = E x0 x1 x2 x3 x4 x5 x6 x7 x8 x9 x10 (r0_7.emb x) := by
  obtain ⟨p, q, rfl⟩ : ∃ (p : Fin 256) (q : Fin 512), x = ix2 p q := ⟨x 0, x 1, eq_ix2 x⟩
  rw [pay_chunk0]
  simp only [View.ld_unit_zero (S := S256x2048) hz, View.ld_unit_zero (S := S256x1024) hz, View.ld_unit_zero (S := S1x2048) hz,
    View.ld_unit_zero (S := S2048x512) hz, shapeCast_self]
  refine (chunk_piece x0 x1 x2 x3 x4 x5 x6 x7 x8 x9 x10 0 (by decide) _ _ _ _ _ p q).trans ?_
  exact congrArg (E x0 x1 x2 x3 x4 x5 x6 x7 x8 x9 x10) (idx_cols 0 _ p q p (colAt 0 (by decide) q) rfl rfl).symm

/-- What the body's four stores leave in the output block, from the eleven input blocks: the block function. -/
theorem out_eq : out0_11 x0 x1 x2 x3 x4 x5 x6 x7 x8 x9 x10 = E x0 x1 x2 x3 x4 x5 x6 x7 x8 x9 x10 := by
  funext y
  unfold out0_11
  refine View.canon_apply_of_pieces (Val := Elt Ideal) (e := .f32) (E x0 x1 x2 x3 x4 x5 x6 x7 x8 x9 x10) _ (fun pc hpc => ?_) y (cover0_11 _ _ _ _ y)
  rcases List.mem_cons.mp hpc with rfl | hpc
  · exact piece3 x0 x1 x2 x3 x4 x5 x6 x7 x8 x9 x10
  rcases List.mem_cons.mp hpc with rfl | hpc
  · exact piece2 x0 x1 x2 x3 x4 x5 x6 x7 x8 x9 x10
  rcases List.mem_cons.mp hpc with rfl | hpc
  · exact piece1 x0 x1 x2 x3 x4 x5 x6 x7 x8 x9 x10
  rcases List.mem_cons.mp hpc with rfl | hpc
  · exact piece0 x0 x1 x2 x3 x4 x5 x6 x7 x8 x9 x10
  · exact absurd hpc List.not_mem_nil

end Chunk

end Cert.Wave.Pieces

end
-- ==== Proof.Arrays.lean ====
/-
  The arrays the kernel's windows stage, read at an entry.

  Before the one kernel region the program prepares eight arrays from its arguments: changes of float format
  (the identity over the extended reals), a transpose of AU, the two row ranges [0, 1024) and [1024, 3072) of WB,
  the scaled diagonal tanh(ad) * κ viewed as a one-row array, and the two biases viewed as one-row arrays.  Each
  is first identified, as a whole array, with the term of its operations over the launch memory, and then read at
  an entry given by its coordinates.
-/
import proofs.«126435_j43379169689842_2_alg».proof.Proof.Gen.KernelIdeal.Frame
import proofs.«126435_j43379169689842_2_alg».proof.Proof.Spec
import proofs.«126435_j43379169689842_2_alg».proof.Proof.LibRowLayout
import Idealize.ShloMosaic.Lib.StableHlo.Run
import Idealize.ShloMosaic.Lib.Pipeline.Value
import Idealize.ShloMosaic.Lib.ValueIdx

noncomputable section
namespace Cert.Wave.Arrays
open Idealize.ShloMosaic Idealize.ShloMosaic.ValueIdx Idealize.ShloMosaic.TcCoe Idealize.SL.Sem Cert.KernelIdeal Cert.KernelIdeal.Gen Cert.Wave
variable (m : (ℓ : Loc nD τ sig) → Buf (Elt Ideal) ℓ) (c : Dev nD)

/-! ## Layout operations at an entry, over any array of the operand's shape -/

/-- tanh of a vector times the broadcast literal, viewed as one row, at (0, n): tanh of the vector's entry n times κ. -/
theorem scaled_row_at (a : S2048.Idx → EReal) (n : Fin 2048) :
    shapeCast S1x2048 (mulf (F := Ideal) (s := S2048) (φ := .f32) (Host.tanh (F := Ideal) (s := S2048) (φ := .f32) a)
        (broadcastInDim S2048 ![] bcast_S_S2048 (constant (F := Ideal) S_ .f32 0x3F666666#32))) shapeCasts_S2048_S1x2048
      (ix2 (0 : Fin 1) n) = Ideal.tanh (a (ix1 n)) * κ := by
  refine (Cert.LibRowLayout.shapeCast_b_1b_apply _ shapeCasts_S2048_S1x2048 (0 : Fin 1) n).trans ?_
  show Ideal.tanh (a (ix1 n))
      * broadcastInDim S2048 ![] bcast_S_S2048 (constant (F := Ideal) S_ .f32 0x3F666666#32) (ix1 n) = _
  rw [broadcastInDim_apply _ bcast_S_S2048 _ (ix1 n) ix0 (fun a => a.elim0)]
  rfl

/-- The transpose of a [2048, 512] array at (r, n) is the array at (n, r). -/
theorem transpose_at (x : S2048x512.Idx → EReal) (r : Fin 512) (n : Fin 2048) :
    transpose S512x2048 [1, 0] x transposes_S2048x512_S512x2048_1_0 (ix2 r n) = x (ix2 n r) :=
  transpose_apply [1, 0] x transposes_S2048x512_S512x2048_1_0 (ix2 r n) (ix2 n r) (fun b => match b with
    | ⟨0, _⟩ => rfl
    | ⟨1, _⟩ => rfl)

/-- The first 1024 rows of a [3072, 2048] array at (k, n): the array at row k. -/
theorem rows_lo_at (x : S3072x2048.Idx → EReal) (k : Fin 1024) (n : Fin 2048) :
    extractStridedSlice S1024x2048 ![0, 0] x slices_S3072x2048_S1024x2048_0_0 (ix2 k n) = x (ix2 (lo k) n) :=
  extractStridedSlice_apply ![0, 0] x slices_S3072x2048_S1024x2048_0_0 (ix2 k n) (ix2 (lo k) n) (fun a => match a with
    | ⟨0, _⟩ => (Nat.zero_add _).symm
    | ⟨1, _⟩ => (Nat.zero_add _).symm)

/-- The last 2048 rows of a [3072, 2048] array at (k, n): the array at row 1024 + k. -/
theorem rows_hi_at (x : S3072x2048.Idx → EReal) (k : Fin 2048) (n : Fin 2048) :
    extractStridedSlice S2048x2048 ![1024, 0] x slices_S3072x2048_S2048x2048_1024_0 (ix2 k n) = x (ix2 (hi k) n) :=
  extractStridedSlice_apply ![1024, 0] x slices_S3072x2048_S2048x2048_1024_0 (ix2 k n) (ix2 (hi k) n) (fun a => match a with
    | ⟨0, _⟩ => rfl
    | ⟨1, _⟩ => (Nat.zero_add _).symm)

/-! ## The scaled diagonal -/

theorem v11_eq : (V m c main_v11 : S1x2048.Idx → EReal)
    = shapeCast S1x2048 (mulf (Host.tanh (m ((c : Thread nD τ).loc main_arg3)))
        (broadcastInDim S2048 ![] bcast_S_S2048 (constant (F := Ideal) S_ .f32 0x3F666666#32))) shapeCasts_S2048_S1x2048 := by
  dsimp only [Gen.V, Gen.hostOps0]; after_results; rfl

theorem diag_at (n : Fin 2048) : (V m c main_v11 : S1x2048.Idx → EReal) (ix2 (0 : Fin 1) n)
    = Ideal.tanh ((m ((c : Thread nD τ).loc main_arg3) : S2048.Idx → EReal) (ix1 n)) * κ := by
  rw [v11_eq]
  exact scaled_row_at _ n

/-! ## AV, in the kernel's float format -/

theorem v0_eq : (V m c main_v0 : S2048x512.Idx → EReal)
    = truncf (F := Ideal) (s := S2048x512) (φ := .f32) .bf16 (m ((c : Thread nD τ).loc main_arg5)) bitsLt_bf16_f32 := by
  dsimp only [Gen.V, Gen.hostOps0]; after_results

theorem av_at (k : Fin 2048) (r : Fin 512) : (V m c main_v0 : S2048x512.Idx → EReal) (ix2 k r)
    = (m ((c : Thread nD τ).loc main_arg5) : S2048x512.Idx → EReal) (ix2 k r) := by
  rw [v0_eq, truncf_apply]

/-! ## AU transposed -/

theorem v2_eq : (V m c main_v2 : S512x2048.Idx → EReal)
    = truncf (F := Ideal) (s := S512x2048) (φ := .f32) .bf16
        (transpose S512x2048 [1, 0] (m ((c : Thread nD τ).loc main_arg4)) transposes_S2048x512_S512x2048_1_0) bitsLt_bf16_f32 := by
  dsimp only [Gen.V, Gen.hostOps0]; after_results

theorem aut_at (r : Fin 512) (n : Fin 2048) : (V m c main_v2 : S512x2048.Idx → EReal) (ix2 r n)
    = (m ((c : Thread nD τ).loc main_arg4) : S2048x512.Idx → EReal) (ix2 n r) := by
  rw [v2_eq, truncf_apply]
  exact transpose_at _ r n

/-! ## Wmod -/

theorem v3_eq : (V m c main_v3 : S1024x2048.Idx → EReal)
    = truncf (F := Ideal) (s := S1024x2048) (φ := .f32) .bf16 (m ((c : Thread nD τ).loc main_arg6)) bitsLt_bf16_f32 := by
  dsimp only [Gen.V, Gen.hostOps0]; after_results

theorem wmod_at (k : Fin 1024) (n : Fin 2048) : (V m c main_v3 : S1024x2048.Idx → EReal) (ix2 k n)
    = (m ((c : Thread nD τ).loc main_arg6) : S1024x2048.Idx → EReal) (ix2 k n) := by
  rw [v3_eq, truncf_apply]

/-! ## The modulation bias as one row -/

theorem v12_eq : (V m c main_v12 : S1x2048.Idx → EReal)
    = shapeCast S1x2048 (m ((c : Thread nD τ).loc main_arg7)) shapeCasts_S2048_S1x2048 := by
  dsimp only [Gen.V, Gen.hostOps0]; after_results; rfl

theorem bmod_at (n : Fin 2048) : (V m c main_v12 : S1x2048.Idx → EReal) (ix2 (0 : Fin 1) n)
    = (m ((c : Thread nD τ).loc main_arg7) : S2048.Idx → EReal) (ix1 n) := by
  rw [v12_eq]
  exact Cert.LibRowLayout.shapeCast_b_1b_apply _ shapeCasts_S2048_S1x2048 (0 : Fin 1) n

/-! ## The two row ranges of WB -/

theorem v5_eq : (V m c main_v5 : S1024x2048.Idx → EReal)
    = truncf (F := Ideal) (s := S1024x2048) (φ := .f32) .bf16
        (extractStridedSlice S1024x2048 ![0, 0] (m ((c : Thread nD τ).loc main_arg8)) slices_S3072x2048_S1024x2048_0_0) bitsLt_bf16_f32 := by
  dsimp only [Gen.V, Gen.hostOps0]; after_results

theorem wbc_at (k : Fin 1024) (n : Fin 2048) : (V m c main_v5 : S1024x2048.Idx → EReal) (ix2 k n)
    = (m ((c : Thread nD τ).loc main_arg8) : S3072x2048.Idx → EReal) (ix2 (lo k) n) := by
  rw [v5_eq, truncf_apply]
  exact rows_lo_at _ k n

theorem v7_eq : (V m c main_v7 : S2048x2048.Idx → EReal)
    = truncf (F := Ideal) (s := S2048x2048) (φ := .f32) .bf16
        (extractStridedSlice S2048x2048 ![1024, 0] (m ((c : Thread nD τ).loc main_arg8)) slices_S3072x2048_S2048x2048_1024_0) bitsLt_bf16_f32 := by
  dsimp only [Gen.V, Gen.hostOps0]; after_results

theorem wbz_at (k : Fin 2048) (n : Fin 2048) : (V m c main_v7 : S2048x2048.Idx → EReal) (ix2 k n)
    = (m ((c : Thread nD τ).loc main_arg8) : S3072x2048.Idx → EReal) (ix2 (hi k) n) := by
  rw [v7_eq, truncf_apply]
  exact rows_hi_at _ k n

/-! ## The input bias as one row -/

theorem v13_eq : (V m c main_v13 : S1x2048.Idx → EReal)
    = shapeCast S1x2048 (m ((c : Thread nD τ).loc main_arg9)) shapeCasts_S2048_S1x2048 := by
  dsimp only [Gen.V, Gen.hostOps0]; after_results; rfl

theorem bb_at (n : Fin 2048) : (V m c main_v13 : S1x2048.Idx → EReal) (ix2 (0 : Fin 1) n)
    = (m ((c : Thread nD τ).loc main_arg9) : S2048.Idx → EReal) (ix1 n) := by
  rw [v13_eq]
  exact Cert.LibRowLayout.shapeCast_b_1b_apply _ shapeCasts_S2048_S1x2048 (0 : Fin 1) n

end Cert.Wave.Arrays
end
-- ==== Proof.Blocks.lean ====
/-
  From one grid point's block to the whole result array.

  The grid has 16 points; point `t` stages rows `256 t … 256 t + 255` of the three activations and of the result,
  and the whole of each of the eight prepared arrays (`idx_facts`, decided over the 16 points).  So the block
  function of the staged blocks at (p, n) is the update at batch row `256 t + p` (`block_point`), what point `t`
  writes back is block `t` of the result function `G` of the argument arrays (`flushed_eq`), the 16 blocks cover
  every row (`cover`), and the array after the run is `G` (`final`, `run`).
-/
import proofs.«126435_j43379169689842_2_alg».proof.Proof.Gen.KernelIdeal.Value
import proofs.«126435_j43379169689842_2_alg».proof.Proof.Pieces
import proofs.«126435_j43379169689842_2_alg».proof.Proof.Arrays
import proofs.«126435_j43379169689842_2_alg».proof.Proof.Spec

noncomputable section

namespace Cert.Wave.Blocks

open Idealize.ShloMosaic Idealize.ShloMosaic.ValueIdx Idealize.ShloMosaic.TcCoe Idealize.SL.Sem
open Cert.KernelIdeal Cert.KernelIdeal.Gen Cert.Wave
open Idealize.ShloMosaic.Pipeline (Dat)

variable (m : (ℓ : Loc nD τ sig) → Buf (Elt Ideal) ℓ) (ρ : Dev nD → PrngReg)

/-- The result function of the argument arrays as launched. -/
abbrev Gm (c : Dev nD) : S4096x2048.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The index maps, decided over the 16 grid points: the three activations and the result move one block of 256 rows
    per point; every other window stays on its whole array. -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-! ## Each staged block read at an entry -/

/-- Window 0's block at point `t` is rows `256 t … 256 t + 255` of its array. -/
theorem blk0_at (c : Dev nD) (t : Fin cfg0.N) (p : Fin 256) (k : Fin 2048) (P : Fin 4096) (hP : P.val = t.val * 256 + p.val) :
    iblk m c 0 t (ix2 p k) = V m c main_arg0 (ix2 P k) := by
  show V m c main_arg0 (((cfg0.win 0).blk t).view.emb (ix2 p k)) = V m c main_arg0 (ix2 P k)
  refine congrArg (V m c main_arg0) (funext fun a => Fin.ext ?_)
  obtain ⟨e, e', _, _, _, _, _, _, _, _, _, _, _, _, _, _, _, _, _, _, _, _, _, _⟩ := idx_facts t
  match a with
  | ⟨0, _⟩ => show win0_0.index t (0 : Fin 2) * 256 + 1 * p.val = P.val; omega
  | ⟨1, _⟩ => show win0_0.index t (1 : Fin 2) * 2048 + 1 * k.val = k.val; omega

/-- Window 1's block at point `t` is rows `256 t … 256 t + 255` of its array. -/
theorem blk1_at (c : Dev nD) (t : Fin cfg0.N) (p : Fin 256) (k : Fin 2048) (P : Fin 4096) (hP : P.val = t.val * 256 + p.val) :
    iblk m c 1 t (ix2 p k) = V m c main_arg1 (ix2 P k) := by
  show V m c main_arg1 (((cfg0.win 1).blk t).view.emb (ix2 p k)) = V m c main_arg1 (ix2 P k)
  refine congrArg (V m c main_arg1) (funext fun a => Fin.ext ?_)
  obtain ⟨_, _, e, e', _, _, _, _, _, _, _, _, _, _, _, _, _, _, _, _, _, _, _, _⟩ := idx_facts t
  match a with
  | ⟨0, _⟩ => show win0_1.index t (0 : Fin 2) * 256 + 1 * p.val = P.val; omega
  | ⟨1, _⟩ => show win0_1.index t (1 : Fin 2) * 2048 + 1 * k.val = k.val; omega

/-- Window 2's block at point `t` is rows `256 t … 256 t + 255` of its array. -/
theorem blk2_at (c : Dev nD) (t : Fin cfg0.N) (p : Fin 256) (k : Fin 1024) (P : Fin 4096) (hP : P.val = t.val * 256 + p.val) :
    iblk m c 2 t (ix2 p k) = V m c main_arg2 (ix2 P k) := by
  show V m c main_arg2 (((cfg0.win 2).blk t).view.emb (ix2 p k)) = V m c main_arg2 (ix2 P k)
  refine congrArg (V m c main_arg2) (funext fun a => Fin.ext ?_)
  obtain ⟨_, _, _, _, e, e', _, _, _, _, _, _, _, _, _, _, _, _, _, _, _, _, _, _⟩ := idx_facts t
  match a with
  | ⟨0, _⟩ => show win0_2.index t (0 : Fin 2) * 256 + 1 * p.val = P.val; omega
  | ⟨1, _⟩ => show win0_2.index t (1 : Fin 2) * 1024 + 1 * k.val = k.val; omega

/-- Window 3's block at every point is its whole array. -/
theorem blk3_at (c : Dev nD) (t : Fin cfg0.N) (p : Fin 1) (k : Fin 2048) :
    iblk m c 3 t (ix2 p k) = V m c main_v11 (ix2 p k) := by
  show V m c main_v11 (((cfg0.win 3).blk t).view.emb (ix2 p k)) = V m c main_v11 (ix2 p k)
  refine congrArg (V m c main_v11) (funext fun a => Fin.ext ?_)
  obtain ⟨_, _, _, _, _, _, e, e', _, _, _, _, _, _, _, _, _, _, _, _, _, _, _, _⟩ := idx_facts t
  match a with
  | ⟨0, _⟩ => show win0_3.index t (0 : Fin 2) * 1 + 1 * p.val = p.val; omega
  | ⟨1, _⟩ => show win0_3.index t (1 : Fin 2) * 2048 + 1 * k.val = k.val; omega

/-- Window 4's block at every point is its whole array. -/
theorem blk4_at (c : Dev nD) (t : Fin cfg0.N) (p : Fin 2048) (k : Fin 512) :
    iblk m c 4 t (ix2 p k) = V m c main_v0 (ix2 p k) := by
  show V m c main_v0 (((cfg0.win 4).blk t).view.emb (ix2 p k)) = V m c main_v0 (ix2 p k)
  refine congrArg (V m c main_v0) (funext fun a => Fin.ext ?_)
  obtain ⟨_, _, _, _, _, _, _, _, e, e', _, _, _, _, _, _, _, _, _, _, _, _, _, _⟩ := idx_facts t
  match a with
  | ⟨0, _⟩ => show win0_4.index t (0 : Fin 2) * 2048 + 1 * p.val = p.val; omega
  | ⟨1, _⟩ => show win0_4.index t (1 : Fin 2) * 512 + 1 * k.val = k.val; omega

/-- Window 5's block at every point is its whole array. -/
theorem blk5_at (c : Dev nD) (t : Fin cfg0.N) (p : Fin 512) (k : Fin 2048) :
    iblk m c 5 t (ix2 p k) = V m c main_v2 (ix2 p k) := by
  show V m c main_v2 (((cfg0.win 5).blk t).view.emb (ix2 p k)) = V m c main_v2 (ix2 p k)
  refine congrArg (V m c main_v2) (funext fun a => Fin.ext ?_)
  obtain ⟨_, _, _, _, _, _, _, _, _, _, e, e', _, _, _, _, _, _, _, _, _, _, _, _⟩ := idx_facts t
  match a with
  | ⟨0, _⟩ => show win0_5.index t (0 : Fin 2) * 512 + 1 * p.val = p.val; omega
  | ⟨1, _⟩ => show win0_5.index t (1 : Fin 2) * 2048 + 1 * k.val = k.val; omega

/-- Window 6's block at every point is its whole array. -/
theorem blk6_at (c : Dev nD) (t : Fin cfg0.N) (p : Fin 1024) (k : Fin 2048) :
    iblk m c 6 t (ix2 p k) = V m c main_v3 (ix2 p k) := by
  show V m c main_v3 (((cfg0.win 6).blk t).view.emb (ix2 p k)) = V m c main_v3 (ix2 p k)
  refine congrArg (V m c main_v3) (funext fun a => Fin.ext ?_)
  obtain ⟨_, _, _, _, _, _, _, _, _, _, _, _, e, e', _, _, _, _, _, _, _, _, _, _⟩ := idx_facts t
  match a with
  | ⟨0, _⟩ => show win0_6.index t (0 : Fin 2) * 1024 + 1 * p.val = p.val; omega
  | ⟨1, _⟩ => show win0_6.index t (1 : Fin 2) * 2048 + 1 * k.val = k.val; omega

/-- Window 7's block at every point is its whole array. -/
theorem blk7_at (c : Dev nD) (t : Fin cfg0.N) (p : Fin 1) (k : Fin 2048) :
    iblk m c 7 t (ix2 p k) = V m c main_v12 (ix2 p k) := by
  show V m c main_v12 (((cfg0.win 7).blk t).view.emb (ix2 p k)) = V m c main_v12 (ix2 p k)
  refine congrArg (V m c main_v12) (funext fun a => Fin.ext ?_)
  obtain ⟨_, _, _, _, _, _, _, _, _, _, _, _, _, _, e, e', _, _, _, _, _, _, _, _⟩ := idx_facts t
  match a with
  | ⟨0, _⟩ => show win0_7.index t (0 : Fin 2) * 1 + 1 * p.val = p.val; omega
  | ⟨1, _⟩ => show win0_7.index t (1 : Fin 2) * 2048 + 1 * k.val = k.val; omega

/-- Window 8's block at every point is its whole array. -/
theorem blk8_at (c : Dev nD) (t : Fin cfg0.N) (p : Fin 1024) (k : Fin 2048) :
    iblk m c 8 t (ix2 p k) = V m c main_v5 (ix2 p k) := by
  show V m c main_v5 (((cfg0.win 8).blk t).view.emb (ix2 p k)) = V m c main_v5 (ix2 p k)
  refine congrArg (V m c main_v5) (funext fun a => Fin.ext ?_)
  obtain ⟨_, _, _, _, _, _, _, _, _, _, _, _, _, _, _, _, e, e', _, _, _, _, _, _⟩ := idx_facts t
  match a with
  | ⟨0, _⟩ => show win0_8.index t (0 : Fin 2) * 1024 + 1 * p.val = p.val; omega
  | ⟨1, _⟩ => show win0_8.index t (1 : Fin 2) * 2048 + 1 * k.val = k.val; omega

/-- Window 9's block at every point is its whole array. -/
theorem blk9_at (c : Dev nD) (t : Fin cfg0.N) (p : Fin 2048) (k : Fin 2048) :
    iblk m c 9 t (ix2 p k) = V m c main_v7 (ix2 p k) := by
  show V m c main_v7 (((cfg0.win 9).blk t).view.emb (ix2 p k)) = V m c main_v7 (ix2 p k)
  refine congrArg (V m c main_v7) (funext fun a => Fin.ext ?_)
  obtain ⟨_, _, _, _, _, _, _, _, _, _, _, _, _, _, _, _, _, _, e, e', _, _, _, _⟩ := idx_facts t
  match a with
  | ⟨0, _⟩ => show win0_9.index t (0 : Fin 2) * 2048 + 1 * p.val = p.val; omega
  | ⟨1, _⟩ => show win0_9.index t (1 : Fin 2) * 2048 + 1 * k.val = k.val; omega

/-- Window 10's block at every point is its whole array. -/
theorem blk10_at (c : Dev nD) (t : Fin cfg0.N) (p : Fin 1) (k : Fin 2048) :
    iblk m c 10 t (ix2 p k) = V m c main_v13 (ix2 p k) := by
  show V m c main_v13 (((cfg0.win 10).blk t).view.emb (ix2 p k)) = V m c main_v13 (ix2 p k)
  refine congrArg (V m c main_v13) (funext fun a => Fin.ext ?_)
  obtain ⟨_, _, _, _, _, _, _, _, _, _, _, _, _, _, _, _, _, _, _, _, e, e', _, _⟩ := idx_facts t
  match a with
  | ⟨0, _⟩ => show win0_10.index t (0 : Fin 2) * 1 + 1 * p.val = p.val; omega
  | ⟨1, _⟩ => show win0_10.index t (1 : Fin 2) * 2048 + 1 * k.val = k.val; omega

/-! ## One point's block of the result -/

theorem lt16 (t : Fin cfg0.N) : t.val < 16 := lt_of_lt_of_eq t.isLt N_0

/-- The block function of the blocks staged at point `t`, at (p, n), is the update at batch row `256 t + p`. -/
theorem block_point (c : Dev nD) (t : Fin cfg0.N) (j : S256x2048.Idx) :
    E (iblk m c 0 t) (iblk m c 1 t) (iblk m c 2 t) (iblk m c 3 t) (iblk m c 4 t) (iblk m c 5 t) (iblk m c 6 t) (iblk m c 7 t) (iblk m c 8 t) (iblk m c 9 t) (iblk m c 10 t) j = Gm m c (((cfg0.win 11).blk t).view.emb j) := by
  obtain ⟨p, n, rfl⟩ : ∃ (p : Fin 256) (n : Fin 2048), j = ix2 p n := ⟨j 0, j 1, eq_ix2 j⟩
  have ht := lt16 t
  have hemb : ((cfg0.win 11).blk t).view.emb (ix2 p n) = ix2 (⟨t.val * 256 + p.val, by have := p.isLt; omega⟩ : Fin 4096) n := by
    funext a; apply Fin.ext
    obtain ⟨_, _, _, _, _, _, _, _, _, _, _, _, _, _, _, _, _, _, _, _, _, _, e, e'⟩ := idx_facts t
    match a with
    | ⟨0, _⟩ => show win0_11.index t (0 : Fin 2) * 256 + 1 * p.val = t.val * 256 + p.val; omega
    | ⟨1, _⟩ => show win0_11.index t (1 : Fin 2) * 2048 + 1 * n.val = n.val; omega
  rw [hemb]
  show E _ _ _ _ _ _ _ _ _ _ _ (ix2 p n) = G _ _ _ _ _ _ _ _ _ _ (ix2 _ n)
  rw [G_ix2, E_ix2]
  refine Eat_eq_Gat _ _ _ _ _ _ _ _ _ _ _ _ _ _ _ _ _ _ _ _ _ p ⟨t.val * 256 + p.val, by have := p.isLt; omega⟩ n
    (fun k => (blk0_at m c t p k _ rfl).trans (congrFun (V_main_arg0 m c) _))
    (fun k => (blk1_at m c t p k _ rfl).trans (congrFun (V_main_arg1 m c) _))
    (fun k => (blk2_at m c t p k _ rfl).trans (congrFun (V_main_arg2 m c) _))
    ((blk3_at m c t 0 n).trans (Arrays.diag_at m c n))
    (fun k r => (blk4_at m c t k r).trans (Arrays.av_at m c k r))
    (fun r => (blk5_at m c t r n).trans (Arrays.aut_at m c r n))
    (fun k => (blk6_at m c t k n).trans (Arrays.wmod_at m c k n))
    ((blk7_at m c t 0 n).trans (Arrays.bmod_at m c n))
    (fun k => (blk8_at m c t k n).trans (Arrays.wbc_at m c k n))
    (fun k => (blk9_at m c t k n).trans (Arrays.wbz_at m c k n))
    ((blk10_at m c t 0 n).trans (Arrays.bb_at m c n))

/-- What point `t` writes back is block `t` of the result function. -/
theorem flushed_eq (c : Dev nD) (t : Fin cfg0.N) :
    (dats m 0 c).flushed 11 t = ((cfg0.win 11).blk t).view.read (Elt Ideal) (Gm m c) := by
  rw [Value.flushed11, Pieces.out_eq (iblk m c 0 t) (iblk m c 1 t) (iblk m c 2 t) (iblk m c 3 t) (iblk m c 4 t) (iblk m c 5 t) (iblk m c 6 t) (iblk m c 7 t) (iblk m c 8 t) (iblk m c 9 t) (iblk m c 10 t)]
  funext j
  exact block_point m c t j

/-! ## The blocks cover the array -/

/-- An index of the array is in point `t`'s block iff each coordinate is in the block's range on its axis. -/
theorem mem_blk (t : Fin cfg0.N) (i : S4096x2048.Idx) :
    i ∈ ((cfg0.win 11).blk t).view.set ↔ ∀ a : Fin 2, win0_11.index t a * S256x2048.size a ≤ (i a).val ∧ (i a).val < win0_11.index t a * S256x2048.size a + S256x2048.size a := by
  show i ∈ ((View.whole main_v14).slice (win0_11.rect t)).set ↔ _
  rw [View.set_slice_whole, Rect.mem_set_unit]
  exact Iff.rfl

/-- Every row of the array lies in the block of the point numbered by its row divided by 256. -/
theorem cover (i : S4096x2048.Idx) : ∃ t : Fin cfg0.N, (cfg0.win 11).flush t = true ∧ i ∈ ((cfg0.win 11).blk t).view.set := by
  have hi0 : (i 0).val < 4096 := (i 0).isLt
  have hi1 : (i 1).val < 2048 := (i 1).isLt
  let t : Fin cfg0.N := ⟨(i 0).val / 256, lt_of_lt_of_eq (show (i 0).val / 256 < 16 by omega) N_0.symm⟩
  refine ⟨t, flush0_11 t, ?_⟩
  rw [mem_blk]
  obtain ⟨_, _, _, _, _, _, _, _, _, _, _, _, _, _, _, _, _, _, _, _, _, _, e, e'⟩ := idx_facts t
  have ht : t.val = (i 0).val / 256 := rfl
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 2048 ≤ (i 1).val ∧ (i 1).val < win0_11.index t (1 : Fin 2) * 2048 + 2048; omega

/-- The result array after the run is the result function of the argument arrays. -/
theorem final (c : Dev nD) : (dats m 0 c).arrAt 11 cfg0.N = Gm m c :=
  (dats m 0 c).arrAt_eq_of_cover 11 (Gm m c) (fun t _ => flushed_eq m c t) cover

/-- The kernel's run: the result at `G` of the arguments, the arguments unchanged. -/
theorem run : θ_run defs (onTc (τ := τ) (main (F := Ideal))) ⟨m, fun _ => 0, ρ⟩ fun r => ∀ c : Dev nD,
      r.2.mem ((c : Thread nD τ).loc main_v14) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.Wave.Blocks

end
-- ==== Proof.lean ====
/-
  The state update of a low-rank-plus-diagonal recurrence, computed two ways, is one array over the extended reals.

  For a batch of 4096 rows the update is, at row p and column n,

      tanh (c_p · Wmod[:, n] + bmod n) * ((tanh (ad n) * κ) * w (p, n) + Σ_r (w_p · AV[:, r]) * AU (n, r))
        + ([c | z]_p · WB[:, n] + bB n).

  The kernel works on 16 blocks of 256 batch rows; for each it forms the low-rank projection w · AV once and then, for
  four chunks of 512 output columns, the five matrix products, the modulation and the sum, and it multiplies the joined row
  [c | z] with WB as c · WB[0:1024] + z · WB[1024:3072].  The reference computes whole-array products and one product
  with the joined array.  Over the extended reals the roundings to bf16 are the identity, a matrix product into a
  zero accumulator is a finite sum, and the only rearrangement between the two sides is the split of a sum over 3072
  positions into its first 1024 and last 2048 terms, which holds in any commutative monoid: no entry needs to be
  finite, and the precondition is never opened.

  Modules: Spec (the formula `G`, the block formula `E`, the split of the sum), RefValue (the reference's value is `G`),
  ChunkV (one chunk of the body read at an entry), Pieces (the body's four stores leave `E`), Arrays (the arrays the
  windows stage, at an entry), Blocks (block t of the result is `E` of point t's blocks, the blocks cover the array,
  the kernel's run ends at `G`).  The frames of both kernels and the runs of both idealized programs are generated
  modules; the idealization rewrote nothing, so `preserves` has nothing to state.
-/
import proofs.«126435_j43379169689842_2_alg».proof.Defs
import proofs.«126435_j43379169689842_2_alg».proof.Proof.Gen.Kernel
import proofs.«126435_j43379169689842_2_alg».proof.Proof.Gen.Kernel.Frame
import proofs.«126435_j43379169689842_2_alg».proof.Proof.Gen.KernelIdeal
import proofs.«126435_j43379169689842_2_alg».proof.Proof.Gen.KernelIdeal.Frame
import proofs.«126435_j43379169689842_2_alg».proof.Proof.Gen.KernelIdeal.Value
import proofs.«126435_j43379169689842_2_alg».proof.Proof.Gen.ReferenceIdeal
import proofs.«126435_j43379169689842_2_alg».proof.Proof.Gen.ReferenceIdeal.Run
import proofs.«126435_j43379169689842_2_alg».proof.Proof.Gen.ReferenceIdeal.Read
import proofs.«126435_j43379169689842_2_alg».proof.Proof.Gen.Pre_finite_inputs
import proofs.«126435_j43379169689842_2_alg».proof.Proof.RefValue
import proofs.«126435_j43379169689842_2_alg».proof.Proof.Blocks

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization changed no operation. -/
theorem preserves : Cert.preserves_Kernel_KernelIdeal := trivial

/-- From memories that agree on the ten arguments both programs end with the result array at `G` of those arguments:
    the kernel block by block, the reference operation by operation. -/
theorem algebraic : Cert.algebraic_KernelIdeal_ReferenceIdeal := by
  intro m ρ m' ρ' _ hagree
  refine ⟨fun c => Cert.Wave.Blocks.Gm m c, Cert.Wave.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v21_eq, Cert.Wave.RefValue.ref_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
